-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x2048 .f32) (main_arg12 : FVec F S1024 .f32) (main_arg13 : FVec F S1024x2048 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x2048 .f32 := Host.absf main_arg13
  let main_cst_24 : FVec F S_ .f32 := constant S_ .f32 0x7F800000#32
  let main_v65 : FVec F S1024x2048 .f32 := broadcastInDim S1024x2048 ![] bcast_S_S1024x2048 main_cst_24
  let main_v66 : IVec S1024x2048 1 := cmpf .olt main_v64 main_v65
  let main_c_25 : IVec S_ 1 := constantI S_ 1 1#1
  let main_v67 : IVec S_ 1 := (fun x v => Host.reduce IntOp.andi x v reducesTo_S1024x2048_S_d0_1 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x2048 .f32) (main_arg12 : FVec F S1024 .f32) (main_arg13 : FVec F S1024x2048 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S5120x1024 : Shape := ⟨2, ![5120, 1024]⟩
abbrev S4096x1024 : Shape := ⟨2, ![4096, 1024]⟩
abbrev S1x1024 : Shape := ⟨2, ![1, 1024]⟩
abbrev S256x1024 : Shape := ⟨2, ![256, 1024]⟩
abbrev S256x5120 : Shape := ⟨2, ![256, 5120]⟩
abbrev S256x4096 : Shape := ⟨2, ![256, 4096]⟩
abbrev S256 : Shape := ⟨1, ![256]⟩
abbrev S256x1 : Shape := ⟨2, ![256, 1]⟩

abbrev nBuf : Space → Nat
  | .hbm => 30
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S5120x1024, .f32⟩
  | .hbm, ⟨20, _⟩ => ⟨S5120x1024, .bf16⟩
  | .hbm, ⟨21, _⟩ => ⟨S4096x1024, .f32⟩
  | .hbm, ⟨22, _⟩ => ⟨S4096x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S5120x1024, .bf16⟩
  | .local _ .vmem, ⟨5, _⟩ => ⟨S4096x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S1024x1024_S1024x1024_S1024x1024_S5120x1024_d0 : Shape.Concatenates [S1024x1024, S1024x1024, S1024x1024, S1024x1024, S1024x1024] S5120x1024 0
  bitsLt_bf16_f32 : FTy.bits .bf16 < FTy.bits .f32
  concatenates_S1024x1024_S1024x1024_S1024x1024_S1024x1024_S4096x1024_d0 : Shape.Concatenates [S1024x1024, S1024x1024, S1024x1024, S1024x1024] S4096x1024 0
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S5120x1024_S5120x1024_0_0 : ∀ a, (![0, 0] : Fin 2 → Nat) a + S5120x1024.size a ≤ S5120x1024.size a
  h_S5120x1024 : 0 < S5120x1024.numel
  shapeCasts_S5120x1024_S5120x1024 : S5120x1024.ShapeCasts S5120x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x1024 : S256x5120.Slices ![0, 3072] S256x1024
  slices_S256x5120_o0_4096_S256x1024 : S256x5120.Slices ![0, 4096] S256x1024
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S256x1024_S256 : S256x1024.Reduces [1] S256
  shapeCasts_S256_S256x1 : S256.ShapeCasts S256x1
  broadcasts_S256x1_S256x1024 : S256x1.Broadcasts S256x1024
  dot_S256x1024_S5120x1024_S256x5120_1_1_0_0_n_n_wf : DotDims.WF S256x1024 S5120x1024 S256x5120 [1] [1] [0] [0] [] []
  dot_S256x1024_S4096x1024_S256x4096_1_1_0_0_n_n_wf : DotDims.WF S256x1024 S4096x1024 S256x4096 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5120x1024.size a ≤ S5120x1024.size a
  hwx0_2 : ∀ i : grid0.Coords, EltTy.bits .bf16 = 32 ∨ (Rect.block (s := S5120x1024) S5120x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S5120x1024_S256x5120_1_1_0_0_n_n : DotDims S256x1024 S5120x1024 S256x5120 where
  lhsContracting := [1]
  rhsContracting := [1]
  lhsNonContracting := [0]
  rhsNonContracting := [0]
  lhsBatch := []
  rhsBatch := []
  wf := dot_S256x1024_S5120x1024_S256x5120_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5120x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S1024, .f32⟩
  | .hbm, ⟨15, _⟩ => ⟨S8192x2048, .f32⟩
  | .hbm, ⟨16, _⟩ => ⟨S2048x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S2048x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S1024x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1024x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1024x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  dot_S8192x2048_S2048x1024_S8192x1024_1_0_0_1_n_n_wf : DotDims.WF S8192x2048 S2048x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.FrameBits.lean ====
import proofs.«180495_j42683384987795_2_alg».proof.Proof.Gen.Kernel.Launch
import proofs.«180495_j42683384987795_2_alg».proof.Proof.Gen.Kernel.Skeleton
import proofs.«180495_j42683384987795_2_alg».proof.Proof.Gen.Kernel.Points
import Idealize.ShloMosaic.Lib.Pipeline.FrameBody
import Idealize.ShloMosaic.Lib.Ring
import Idealize.ShloMosaic.Lib.Tactic

/-!
# The frame of the kernel at any float instance

One region on a grid of 32 points. Ten windows are read (two row blocks of 256 rows that move with
the point, eight whole arrays that never move) and one row block of 256 rows is written. The body
reads every input buffer whole, computes, and overwrites the whole output buffer. This file names
what each buffer holds around the body and proves that the program runs to its end, faults nowhere,
and leaves its fifteen arguments as they were.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the region's entry -/

/-- What core `c`'s buffer `b` holds once the fourteen host operations before the region have run
    from the memory `m`. -/
abbrev V (c : Dev nD) (b : Ref sig .tc) : Buf (Elt F) ((c : Thread nD τ).loc b) :=
  StableHlo.after hostOps0 (fun b => m (c, b)) b

/-- The block of window `w` at point `t`: the part of the window's array, as it stands at the
    region's entry, that the window's index map selects at `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body reads and writes through

Every access of the body is the whole buffer: origin `[0, 0]`, the buffer's own extents. -/

abbrev r256 : Rect S256x1024 := Rect.unit (s := S256x1024) ![0, 0] S256x1024.size inb_S256x1024_S256x1024_0_0
abbrev r5120 : Rect S5120x1024 := Rect.unit (s := S5120x1024) ![0, 0] S5120x1024.size inb_S5120x1024_S5120x1024_0_0
abbrev r4096 : Rect S4096x1024 := Rect.unit (s := S4096x1024) ![0, 0] S4096x1024.size inb_S4096x1024_S4096x1024_0_0
abbrev r1024 : Rect S1024x1024 := Rect.unit (s := S1024x1024) ![0, 0] S1024x1024.size inb_S1024x1024_S1024x1024_0_0
abbrev r1 : Rect S1x1024 := Rect.unit (s := S1x1024) ![0, 0] S1x1024.size inb_S1x1024_S1x1024_0_0

/-! ## What the body leaves in the output buffer -/

/-- The output buffer after the body, as a function of what the ten input buffers hold: the single
    store of the body, whose value is the body's last sum over the ten values read. -/
def out10 (x0 x1 : Vec F S256x1024 .f32) (x2 : Vec F S5120x1024 .bf16) (x3 : Vec F S4096x1024 .bf16)
    (x4 : Vec F S1024x1024 .bf16) (x5 x6 x7 x8 x9 : Vec F S1x1024 .f32) : Vec F S256x1024 .f32 :=
  View.canon [⟨r256,
    k0_pay1 (View.ld x1 r256)
      (k0_pay4 (View.ld x0 r256) (View.ld x2 r5120))
      (k0_pay5 (View.ld x0 r256) (View.ld x2 r5120))
      (k0_pay6 (View.ld x1 r256) (View.ld x3 r4096))
      (k0_pay7 (View.ld x1 r256) (View.ld x3 r4096))
      (k0_pay8 (View.ld x0 r256) (View.ld x1 r256) (View.ld x2 r5120) (View.ld x3 r4096) (View.ld x6 r1))
      (k0_pay9 (View.ld x0 r256) (View.ld x1 r256) (View.ld x2 r5120) (View.ld x3 r4096) (View.ld x5 r1) (View.ld x4 r1024))
      (k0_pay10 (View.ld x7 r1))
      (View.ld x8 r1) (View.ld x9 r1)⟩]

/-! ## The description of the pipeline handed to the launch theorem -/

/-- For core `c`: each window's array is what the region finds; after the body at point `t` an input
    buffer still holds its block and the output buffer holds `out10` of the ten input blocks; the
    invariant is the standard one (nothing besides the windows is touched); nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t)
        (iblk m c 5 t) (iblk m c 6 t) (iblk m c 7 t) (iblk m c 8 t) (iblk m c 9 t)
  Φ _ := Pipeline.ΦA spec0 c
  q _ := fullShare
  owed _ := 0

/-- The arrays of the description are the region-entry contents (by projection; `V` stays folded). -/
theorem A_eq (c : Dev nD) (w : Fin cfg0.W) : (dats m 0 c).A w = V m c (Pipeline.arrRef spec0 w) := by
  dsimp only [dats]

/-! What the description says each buffer holds after the body, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t
    = out10 (iblk m c 0 t) (iblk m c 1 t) (iblk m c 2 t) (iblk m c 3 t) (iblk m c 4 t)
        (iblk m c 5 t) (iblk m c 6 t) (iblk m c 7 t) (iblk m c 8 t) (iblk m c 9 t) := by dsimp only [dats]

/-! ## The program up to the region -/

/-- No host operation allocates anything. -/
theorem hostOps0_fresh : (hostOps0 : List (HloOp τ sig (Elt F))).Forall fun op => op.fresh = ∅ := by
  simp only [List.Forall]; repeat' constructor

/-- The program is its fourteen host operations followed by the region, so the region is entered with
    every buffer at `V`. -/
theorem hmain (𝒱₀ : Variants) : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub hostOps0_fresh main_chain

/-! The host operations write only the fourteen intermediate arrays, never an argument. -/

/-- None of the fourteen host operations writes argument 0: the region finds it as `m` has it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 1: the region finds it as `m` has it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 2: the region finds it as `m` has it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 3: the region finds it as `m` has it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 4: the region finds it as `m` has it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 5: the region finds it as `m` has it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 6: the region finds it as `m` has it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 7: the region finds it as `m` has it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 8: the region finds it as `m` has it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 9: the region finds it as `m` has it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 10: the region finds it as `m` has it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 11: the region finds it as `m` has it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 12: the region finds it as `m` has it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 13: the region finds it as `m` has it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 14: the region finds it as `m` has it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))

/-! ## An input buffer holds its block at every point

A window fetched at a point holds the block fetched there. A window not fetched at a point has the
block index it had one point earlier, and the body left that block in place, so it still holds the
block of this point. Both cases are one library lemma; its side conditions are that the window is
never idle, is not clipped, and that the body leaves the block as found. -/

theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c)
    (hA : dat.A 7 = V m c (Pipeline.arrRef spec0 7)) (hafter : ∀ t, dat.after 7 t = iblk m c 7 t)
    (t : Fin cfg0.N) (d) : dat.before 7 t d = iblk m c 7 t :=
  (dat.before_in_eq_fetched 7 rfl (fun _ => rfl) (fun _ _ _ => rfl)
    (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c)
    (hA : dat.A 8 = V m c (Pipeline.arrRef spec0 8)) (hafter : ∀ t, dat.after 8 t = iblk m c 8 t)
    (t : Fin cfg0.N) (d) : dat.before 8 t d = iblk m c 8 t :=
  (dat.before_in_eq_fetched 8 rfl (fun _ => rfl) (fun _ _ _ => rfl)
    (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c)
    (hA : dat.A 9 = V m c (Pipeline.arrRef spec0 9)) (hafter : ∀ t, dat.after 9 t = iblk m c 9 t)
    (t : Fin cfg0.N) (d) : dat.before 9 t d = iblk m c 9 t :=
  (dat.before_in_eq_fetched 9 rfl (fun _ => rfl) (fun _ _ _ => rfl)
    (fun t => by rw [hafter]; unfold Dat.blockOf iblk; rw [hA]; try rfl) t d).trans
    (by unfold Dat.fetched Dat.blockOf iblk; rw [hA]; try rfl)

/-! ## From the final state of the run to the unchanged arguments

Arguments 0 and 1 are the arrays of the input windows 0 and 1: an input window's array is never
written back, so it ends as the region found it. Arguments 2 to 14 are the array of no window and
pass the region untouched. In both cases the region found the argument as `m` has it. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body -/

/-- The one store of the body is the whole output buffer, so every position of the buffer lies in it. -/
theorem cover10 (p0 : Vec F S256x1024 .f32) (y : S256x1024.Idx) :
    ∃ pc ∈ ([⟨r256, p0⟩] : List (View.Piece (Elt F) S256x1024 .f32)), y ∈ pc.1.set :=
  View.cover_of_tiled [⟨r256, p0⟩] S256x1024.size (by rfl) y

set_option maxHeartbeats 1000000 in
/-- The body, given the ten input buffers whole at contents `x0 … x9` and the output buffer whole at
    any contents, runs to its end and hands back the inputs as they were and the output buffer at
    `out10 x0 … x9`. The body does read the output buffer before storing, but the value read goes
    nowhere, and the store that follows overwrites every position. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S5120x1024 .bf16) (harg3 : arg3.IsWhole)
    (arg4 : Memref sig .tc .vmem S4096x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S256x1024 .f32) (harg11 : arg11.IsWhole)
    (x0 x1 : Vec F S256x1024 .f32) (x2 : Vec F S5120x1024 .bf16) (x3 : Vec F S4096x1024 .bf16)
    (x4 : Vec F S1024x1024 .bf16) (x5 x6 x7 x8 x9 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E
          (cc0__rau_kernel i arg1 harg1 arg2 harg2 arg3 harg3 arg4 harg4 arg5 harg5 arg6 harg6 arg7 harg7 arg8 harg8 arg9 harg9 arg10 harg10 arg11 harg11) K := by
  simp only [cc0__rau_kernel_eq_skeleton]; unfold cc0__rau_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The body at a point of the grid -/

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- What the pipeline hands the body at point `t`: the invariant, what the core owes, and each
    window's current buffer whole at what the description says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back: the same, each buffer at what the description says it holds after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At every point each input buffer holds its block, so the body's triple applies with the blocks
    for `x0 … x9`; the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory `m` with all counters at zero, every weakly fair execution of the program ends
    without a fault; at the end each window's array holds what the description computes for it and
    every other unscoped buffer holds what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.FrameIdeal.lean ====
import proofs.«180495_j42683384987795_2_alg».proof.Proof.Gen.KernelIdeal.Launch
import proofs.«180495_j42683384987795_2_alg».proof.Proof.Gen.KernelIdeal.Skeleton
import proofs.«180495_j42683384987795_2_alg».proof.Proof.Gen.KernelIdeal.Points
import Idealize.ShloMosaic.Lib.Pipeline.FrameBody
import Idealize.ShloMosaic.Lib.Ring
import Idealize.ShloMosaic.Lib.Tactic

/-!
# The frame of the idealized kernel

One region on a grid of 32 points. Ten windows are read (two row blocks of 256 rows that move with
the point, eight whole arrays that never move) and one row block of 256 rows is written. The body
reads every input buffer whole, computes, and overwrites the whole output buffer. This file names
what each buffer holds around the body and proves that the program runs to its end, faults nowhere,
and leaves its fifteen arguments as they were.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the region's entry -/

/-- What core `c`'s buffer `b` holds once the fourteen host operations before the region have run
    from the memory `m`. -/
abbrev V (c : Dev nD) (b : Ref sig .tc) : Buf (Elt F) ((c : Thread nD τ).loc b) :=
  StableHlo.after hostOps0 (fun b => m (c, b)) b

/-- The block of window `w` at point `t`: the part of the window's array, as it stands at the
    region's entry, that the window's index map selects at `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body reads and writes through

Every access of the body is the whole buffer: origin `[0, 0]`, the buffer's own extents. -/

abbrev r256 : Rect S256x1024 := Rect.unit (s := S256x1024) ![0, 0] S256x1024.size inb_S256x1024_S256x1024_0_0
abbrev r5120 : Rect S5120x1024 := Rect.unit (s := S5120x1024) ![0, 0] S5120x1024.size inb_S5120x1024_S5120x1024_0_0
abbrev r4096 : Rect S4096x1024 := Rect.unit (s := S4096x1024) ![0, 0] S4096x1024.size inb_S4096x1024_S4096x1024_0_0
abbrev r1024 : Rect S1024x1024 := Rect.unit (s := S1024x1024) ![0, 0] S1024x1024.size inb_S1024x1024_S1024x1024_0_0
abbrev r1 : Rect S1x1024 := Rect.unit (s := S1x1024) ![0, 0] S1x1024.size inb_S1x1024_S1x1024_0_0

/-! ## What the body leaves in the output buffer -/

/-- The output buffer after the body, as a function of what the ten input buffers hold: the single
    store of the body, whose value is the body's last sum over the ten values read. -/
def out10 (x0 x1 : Vec F S256x1024 .f32) (x2 : Vec F S5120x1024 .bf16) (x3 : Vec F S4096x1024 .bf16)
    (x4 : Vec F S1024x1024 .bf16) (x5 x6 x7 x8 x9 : Vec F S1x1024 .f32) : Vec F S256x1024 .f32 :=
  View.canon [⟨r256,
    k0_pay1 (View.ld x1 r256)
      (k0_pay4 (View.ld x0 r256) (View.ld x2 r5120))
      (k0_pay5 (View.ld x0 r256) (View.ld x2 r5120))
      (k0_pay6 (View.ld x1 r256) (View.ld x3 r4096))
      (k0_pay7 (View.ld x1 r256) (View.ld x3 r4096))
      (k0_pay8 (View.ld x0 r256) (View.ld x1 r256) (View.ld x2 r5120) (View.ld x3 r4096) (View.ld x6 r1))
      (k0_pay9 (View.ld x0 r256) (View.ld x1 r256) (View.ld x2 r5120) (View.ld x3 r4096) (View.ld x5 r1) (View.ld x4 r1024))
      (k0_pay10 (View.ld x7 r1))
      (View.ld x8 r1) (View.ld x9 r1)⟩]

/-! ## The description of the pipeline handed to the launch theorem -/

/-- For core `c`: each window's array is what the region finds; after the body at point `t` an input
    buffer still holds its block and the output buffer holds `out10` of the ten input blocks; the
    invariant is the standard one (nothing besides the windows is touched); nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t)
        (iblk m c 5 t) (iblk m c 6 t) (iblk m c 7 t) (iblk m c 8 t) (iblk m c 9 t)
  Φ _ := Pipeline.ΦA spec0 c
  q _ := fullShare
  owed _ := 0

/-- The arrays of the description are the region-entry contents (by projection; `V` stays folded). -/
theorem A_eq (c : Dev nD) (w : Fin cfg0.W) : (dats m 0 c).A w = V m c (Pipeline.arrRef spec0 w) := by
  dsimp only [dats]

/-! What the description says each buffer holds after the body, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t
    = out10 (iblk m c 0 t) (iblk m c 1 t) (iblk m c 2 t) (iblk m c 3 t) (iblk m c 4 t)
        (iblk m c 5 t) (iblk m c 6 t) (iblk m c 7 t) (iblk m c 8 t) (iblk m c 9 t) := by dsimp only [dats]

/-! ## The program up to the region -/

/-- No host operation allocates anything. -/
theorem hostOps0_fresh : (hostOps0 : List (HloOp τ sig (Elt F))).Forall fun op => op.fresh = ∅ := by
  simp only [List.Forall]; repeat' constructor

/-- The program is its fourteen host operations followed by the region, so the region is entered with
    every buffer at `V`. -/
theorem hmain (𝒱₀ : Variants) : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub hostOps0_fresh main_chain

/-! The host operations write only the fourteen intermediate arrays, never an argument. -/

/-- None of the fourteen host operations writes argument 0: the region finds it as `m` has it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 1: the region finds it as `m` has it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 2: the region finds it as `m` has it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 3: the region finds it as `m` has it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 4: the region finds it as `m` has it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 5: the region finds it as `m` has it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 6: the region finds it as `m` has it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 7: the region finds it as `m` has it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 8: the region finds it as `m` has it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 9: the region finds it as `m` has it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 10: the region finds it as `m` has it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 11: the region finds it as `m` has it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 12: the region finds it as `m` has it. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 13: the region finds it as `m` has it. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))
/-- None of the fourteen host operations writes argument 14: the region finds it as `m` has it. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes,
      Finset.mem_singleton]
    repeat' apply And.intro
    all_goals exact StableHlo.devRef_ne_of_ne (by decide)))

/-! ## An input buffer holds its block at every point

A window fetched at a point holds the block fetched there. A window not fetched at a point has the
block index it had one point earlier, and the body left that block in place, so it still holds the
block of this point. Both cases are one library lemma; its side conditions are that the window is
never idle, is not clipped, and that the body leaves the block as found. -/

theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c)
    (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl)
    (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c)
    (hA : dat.A 7 = V m c (Pipeline.arrRef spec0 7)) (hafter : ∀ t, dat.after 7 t = iblk m c 7 t)
    (t : Fin cfg0.N) (d) : dat.before 7 t d = iblk m c 7 t :=
  (dat.before_in_eq_fetched 7 rfl (fun _ => rfl) (fun _ _ _ => rfl)
    (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c)
    (hA : dat.A 8 = V m c (Pipeline.arrRef spec0 8)) (hafter : ∀ t, dat.after 8 t = iblk m c 8 t)
    (t : Fin cfg0.N) (d) : dat.before 8 t d = iblk m c 8 t :=
  (dat.before_in_eq_fetched 8 rfl (fun _ => rfl) (fun _ _ _ => rfl)
    (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c)
    (hA : dat.A 9 = V m c (Pipeline.arrRef spec0 9)) (hafter : ∀ t, dat.after 9 t = iblk m c 9 t)
    (t : Fin cfg0.N) (d) : dat.before 9 t d = iblk m c 9 t :=
  (dat.before_in_eq_fetched 9 rfl (fun _ => rfl) (fun _ _ _ => rfl)
    (fun t => by rw [hafter]; unfold Dat.blockOf iblk; rw [hA]; try rfl) t d).trans
    (by unfold Dat.fetched Dat.blockOf iblk; rw [hA]; try rfl)

/-! ## From the final state of the run to the unchanged arguments

Arguments 0 and 1 are the arrays of the input windows 0 and 1: an input window's array is never
written back, so it ends as the region found it. Arguments 2 to 14 are the array of no window and
pass the region untouched. In both cases the region found the argument as `m` has it. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body -/

/-- The one store of the body is the whole output buffer, so every position of the buffer lies in it. -/
theorem cover10 (p0 : Vec F S256x1024 .f32) (y : S256x1024.Idx) :
    ∃ pc ∈ ([⟨r256, p0⟩] : List (View.Piece (Elt F) S256x1024 .f32)), y ∈ pc.1.set :=
  View.cover_of_tiled [⟨r256, p0⟩] S256x1024.size (by rfl) y

set_option maxHeartbeats 1000000 in
/-- The body, given the ten input buffers whole at contents `x0 … x9` and the output buffer whole at
    any contents, runs to its end and hands back the inputs as they were and the output buffer at
    `out10 x0 … x9`. The body does read the output buffer before storing, but the value read goes
    nowhere, and the store that follows overwrites every position. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S5120x1024 .bf16) (harg3 : arg3.IsWhole)
    (arg4 : Memref sig .tc .vmem S4096x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S256x1024 .f32) (harg11 : arg11.IsWhole)
    (x0 x1 : Vec F S256x1024 .f32) (x2 : Vec F S5120x1024 .bf16) (x3 : Vec F S4096x1024 .bf16)
    (x4 : Vec F S1024x1024 .bf16) (x5 x6 x7 x8 x9 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E
          (cc0__rau_kernel i arg1 harg1 arg2 harg2 arg3 harg3 arg4 harg4 arg5 harg5 arg6 harg6 arg7 harg7 arg8 harg8 arg9 harg9 arg10 harg10 arg11 harg11) K := by
  simp only [cc0__rau_kernel_eq_skeleton]; unfold cc0__rau_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

/-! ## The body at a point of the grid -/

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- What the pipeline hands the body at point `t`: the invariant, what the core owes, and each
    window's current buffer whole at what the description says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back: the same, each buffer at what the description says it holds after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At every point each input buffer holds its block, so the body's triple applies with the blocks
    for `x0 … x9`; the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory `m` with all counters at zero, every weakly fair execution of the program ends
    without a fault; at the end each window's array holds what the description computes for it and
    every other unscoped buffer holds what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.Spec.lean ====
/-
  The recurrent cell both programs compute, as ONE function of the fifteen argument arrays, element by element, on the
  extended reals.  For a batch row `r` and a hidden unit `j`:

    reset  r j = σ((x_r · Wxr_j + h_r · Whr_j) + br_j)
    update r j = σ((x_r · Wxz_j + h_r · Whz_j) + bz_j)
    cand   r j = tanh((x_r · Wxh_j + (reset r ⊙ h_r) · Whh_j) + bh_j)
    score  r j = (x_r · Wc_j[0:1024] + h_r · Wc_j[1024:2048]) + bc_j      (the double-width weight's two halves, each a square matrix)
    attn   r j = exp(score r j − rowmax r) / Σ_k exp(score r k − rowmax r)      (a softmax along the row)
    gatein r j = max((x_r · What_j[0:1024] + h_r · What_j[1024:2048]) + bhat_j, 0)
    cell   r j = ((1 − update r j) · cand r j + update r j · h r j) + attn r j · gatein r j

  where `a_r · W_j = Σ_k a[r,k] · W[j,k]` is a row of the batch against a row of a weight (every weight is stored
  (out, in)), σ is `1 / (1 + e^(−·))`, and the one and the zero are the words `0x3F800000` and `0x00000000` kept as words.
  Nothing here needs finiteness: only the order and grouping of sums differ between the two programs.
-/
import Idealize.ShloMosaic.PureOps.Ideal
import Idealize.ShloMosaic.Lib.ValueIdx

noncomputable section

open scoped BigOperators

namespace Cert.Cell

open Idealize.ShloMosaic Idealize.ShloMosaic.ValueIdx

/-- A matrix of extended reals, by its two extents. -/
abbrev Mat (a b : Nat) := (⟨2, ![a, b]⟩ : Shape).Idx → EReal
/-- A vector of extended reals, by its extent. -/
abbrev Vc (a : Nat) := (⟨1, ![a]⟩ : Shape).Idx → EReal

/-- The word of −∞, the word of 0 and the word of 1, read at the ideal instance. -/
abbrev ninf : EReal := Ideal.ofBits .f32 0xFF800000#32
abbrev zer : EReal := Ideal.ofBits .f32 0x00000000#32
abbrev one : EReal := Ideal.ofBits .f32 0x3F800000#32

/-- Row `r` of `a` against row `j` of a square weight: `Σ_k a[r,k] · w[j,k]`. -/
def rowDot {B n : Nat} (a : Mat B 1024) (w : Mat n 1024) (r : Fin B) (j : Fin n) : EReal :=
  ∑ k : Fin 1024, a (ix2 r k) * w (ix2 j k)

/-- The LEFT half (columns 0 … 1023) of a double-width weight, as a square matrix. -/
def leftHalf {n : Nat} (w : Mat n 2048) : Mat n 1024 :=
  fun i => w (ix2 (i 0) (⟨(i 1).val, by have := idx2_lt1 i; omega⟩ : Fin 2048))

/-- The RIGHT half (columns 1024 … 2047) of a double-width weight, as a square matrix. -/
def rightHalf {n : Nat} (w : Mat n 2048) : Mat n 1024 :=
  fun i => w (ix2 (i 0) (⟨1024 + (i 1).val, by have := idx2_lt1 i; omega⟩ : Fin 2048))

/-- Against the left half, written out: `Σ_k a[r,k] · w[j,k]`, `k` below 1024. -/
theorem rowDot_leftHalf {B n : Nat} (a : Mat B 1024) (w : Mat n 2048) (r : Fin B) (j : Fin n) :
    rowDot a (leftHalf w) r j = ∑ k : Fin 1024, a (ix2 r k) * w (ix2 j (⟨k.val, by omega⟩ : Fin 2048)) := rfl

/-- Against the right half, written out: `Σ_k a[r,k] · w[j,1024+k]`. -/
theorem rowDot_rightHalf {B n : Nat} (a : Mat B 1024) (w : Mat n 2048) (r : Fin B) (j : Fin n) :
    rowDot a (rightHalf w) r j = ∑ k : Fin 1024, a (ix2 r k) * w (ix2 j (⟨1024 + k.val, by omega⟩ : Fin 2048)) := rfl

section
variable {B : Nat} (x h : Mat B 1024)

/-- A gate: the logistic function of the two projections' sum plus the bias. -/
def gate (wx wh : Mat 1024 1024) (b : Vc 1024) (r : Fin B) (j : Fin 1024) : EReal :=
  Ideal.logistic ((rowDot x wx r j + rowDot h wh r j) + b (ix1 j))

/-- The candidate state: the hidden row is scaled by the reset gate before its projection. -/
def cand (wxr whr : Mat 1024 1024) (br : Vc 1024) (wxh whh : Mat 1024 1024) (bh : Vc 1024) (r : Fin B) (j : Fin 1024) : EReal :=
  Ideal.tanh ((rowDot x wxh r j + ∑ k : Fin 1024, (gate x h wxr whr br r k * h (ix2 r k)) * whh (ix2 j k)) + bh (ix1 j))

/-- Two square weights applied to `x_r` and to `h_r` (a double-width weight on the row `[x_r | h_r]`), plus the bias. -/
def joint (wl wr : Mat 1024 1024) (b : Vc 1024) (r : Fin B) (j : Fin 1024) : EReal :=
  (rowDot x wl r j + rowDot h wr r j) + b (ix1 j)

/-- The row's largest score, folded from −∞ (and joined with −∞ once more, as both programs do). -/
def rowMax (wl wr : Mat 1024 1024) (bc : Vc 1024) (r : Fin B) : EReal :=
  max ninf ((Finset.univ : Finset (Fin 1024)).fold max ninf (fun k => joint x h wl wr bc r k))

/-- The shifted exponential of a score. -/
def expo (wl wr : Mat 1024 1024) (bc : Vc 1024) (r : Fin B) (j : Fin 1024) : EReal :=
  Ideal.exp (joint x h wl wr bc r j - rowMax x h wl wr bc r)

/-- The softmax weight. -/
def attn (wl wr : Mat 1024 1024) (bc : Vc 1024) (r : Fin B) (j : Fin 1024) : EReal :=
  Ideal.div (expo x h wl wr bc r j) (∑ k : Fin 1024, expo x h wl wr bc r k)

/-- The cell's new hidden state at `(r, j)`. -/
def cell (wxr whr : Mat 1024 1024) (br : Vc 1024) (wxz whz : Mat 1024 1024) (bz : Vc 1024)
    (wxh whh : Mat 1024 1024) (bh : Vc 1024) (wcl wcr : Mat 1024 1024) (bc : Vc 1024) (wal war : Mat 1024 1024) (bhat : Vc 1024)
    (r : Fin B) (j : Fin 1024) : EReal :=
  ((one - gate x h wxz whz bz r j) * cand x h wxr whr br wxh whh bh r j + gate x h wxz whz bz r j * h (ix2 r j))
    + attn x h wcl wcr bc r j * max (joint x h wal war bhat r j) zer

end

/-- The whole result array: `cell` at the index's two coordinates. -/
def G (x h : Mat 8192 1024) (wxr whr : Mat 1024 1024) (br : Vc 1024) (wxz whz : Mat 1024 1024) (bz : Vc 1024)
    (wxh whh : Mat 1024 1024) (bh : Vc 1024) (wc : Mat 1024 2048) (bc : Vc 1024) (what : Mat 1024 2048) (bhat : Vc 1024) :
    Mat 8192 1024 :=
  fun i => cell x h wxr whr br wxz whz bz wxh whh bh (leftHalf wc) (rightHalf wc) bc (leftHalf what) (rightHalf what) bhat (i 0) (i 1)

end Cert.Cell

end
-- ==== Proof.KernelDots.lean ====
/-
  The three matrix products of the cell's body, read at an index on the extended reals.  Each contracts the second axis of
  BOTH operands (the weights are stored (out, in)), into a zero accumulator: entry `(p, j)` is `Σ_k a[p,k] · w[j,k]`.
-/
import proofs.«180495_j42683384987795_2_alg».proof.Proof.Gen.KernelIdeal.Skeleton
import proofs.«180495_j42683384987795_2_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Pay

open Cert.KernelIdeal Cert.KernelIdeal.Gen Idealize.ShloMosaic Idealize.ShloMosaic.ValueIdx

/-- The product against a weight of 5120 rows, read at `(p, j)`: row `p` of the block against row `j` of the weight (both
    operands contract their second axis). -/
theorem matmul5120_apply (a : FVec Ideal S256x1024 .bf16) (w : FVec Ideal S5120x1024 .bf16) (p : Fin 256) (j : Fin 5120) :
    matmul (F := Ideal) dot_S256x1024_S5120x1024_S256x5120_1_1_0_0_n_n none a w (constant ⟨2, ![256, 5120]⟩ .f32 0x00000000#32) (ix2 p j)
      = ∑ k : Fin 1024, a (ix2 p k) * w (ix2 j k) := by
  simp only [matmul]
  rw [Ideal.matmul_constant_zero_apply, ← Equiv.sum_comp (contrEquiv1 dot_S256x1024_S5120x1024_S256x5120_1_1_0_0_n_n 1024 rfl rfl).symm]
  refine Finset.sum_congr rfl fun k _ => ?_
  have hk := contrEquiv1_symm_val dot_S256x1024_S5120x1024_S256x5120_1_1_0_0_n_n 1024 rfl rfl k
  have el : dot_S256x1024_S5120x1024_S256x5120_1_1_0_0_n_n.lhsIdx (ix2 p j) ((contrEquiv1 dot_S256x1024_S5120x1024_S256x5120_1_1_0_0_n_n 1024 rfl rfl).symm k) = ix2 p k := funext fun ax => Fin.ext (by
    match ax with
    | ⟨0, _⟩ =>
      show (dot_S256x1024_S5120x1024_S256x5120_1_1_0_0_n_n.lhsIdx (ix2 p j) _ 0).val = p.val
      unfold DotDims.lhsIdx
      rw [dif_neg (show ¬(0 : Fin S256x1024.rank) ∈ dot_S256x1024_S5120x1024_S256x5120_1_1_0_0_n_n.lhsBatch by decide), dif_pos (show (0 : Fin S256x1024.rank) ∈ dot_S256x1024_S5120x1024_S256x5120_1_1_0_0_n_n.lhsNonContracting by decide)]
      rfl
    | ⟨1, _⟩ => exact (dot_S256x1024_S5120x1024_S256x5120_1_1_0_0_n_n.lhsIdx_val_of_single rfl _ _).trans hk)
  have er : dot_S256x1024_S5120x1024_S256x5120_1_1_0_0_n_n.rhsIdx (ix2 p j) ((contrEquiv1 dot_S256x1024_S5120x1024_S256x5120_1_1_0_0_n_n 1024 rfl rfl).symm k) = ix2 j k := funext fun ax => Fin.ext (by
    match ax with
    | ⟨0, _⟩ =>
      show (dot_S256x1024_S5120x1024_S256x5120_1_1_0_0_n_n.rhsIdx (ix2 p j) _ 0).val = j.val
      unfold DotDims.rhsIdx
      rw [dif_neg (show ¬(0 : Fin S5120x1024.rank) ∈ dot_S256x1024_S5120x1024_S256x5120_1_1_0_0_n_n.rhsBatch by decide), dif_pos (show (0 : Fin S5120x1024.rank) ∈ dot_S256x1024_S5120x1024_S256x5120_1_1_0_0_n_n.rhsNonContracting by decide)]
      rfl
    | ⟨1, _⟩ => exact (dot_S256x1024_S5120x1024_S256x5120_1_1_0_0_n_n.rhsIdx_val_of_single rfl _ _).trans hk)
  rw [el, er]

/-- The product against a weight of 4096 rows, read at `(p, j)`: row `p` of the block against row `j` of the weight (both
    operands contract their second axis). -/
theorem matmul4096_apply (a : FVec Ideal S256x1024 .bf16) (w : FVec Ideal S4096x1024 .bf16) (p : Fin 256) (j : Fin 4096) :
    matmul (F := Ideal) dot_S256x1024_S4096x1024_S256x4096_1_1_0_0_n_n none a w (constant ⟨2, ![256, 4096]⟩ .f32 0x00000000#32) (ix2 p j)
      = ∑ k : Fin 1024, a (ix2 p k) * w (ix2 j k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k := funext fun ax => Fin.ext (by
    match ax with
    | ⟨0, _⟩ =>
      show (dot_S256x1024_S4096x1024_S256x4096_1_1_0_0_n_n.lhsIdx (ix2 p j) _ 0).val = p.val
      unfold DotDims.lhsIdx
      rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
      rfl
    | ⟨1, _⟩ => exact (dot_S256x1024_S4096x1024_S256x4096_1_1_0_0_n_n.lhsIdx_val_of_single rfl _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k := funext fun ax => Fin.ext (by
    match ax with
    | ⟨0, _⟩ =>
      show (dot_S256x1024_S4096x1024_S256x4096_1_1_0_0_n_n.rhsIdx (ix2 p j) _ 0).val = j.val
      unfold DotDims.rhsIdx
      rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
      rfl
    | ⟨1, _⟩ => exact (dot_S256x1024_S4096x1024_S256x4096_1_1_0_0_n_n.rhsIdx_val_of_single rfl _ _).trans hk)
  rw [el, er]

/-- The product against a weight of 1024 rows, read at `(p, j)`: row `p` of the block against row `j` of the weight (both
    operands contract their second axis). -/
theorem matmul1024_apply (a : FVec Ideal S256x1024 .bf16) (w : FVec Ideal S1024x1024 .bf16) (p : Fin 256) (j : Fin 1024) :
    matmul (F := Ideal) dot_S256x1024_S1024x1024_S256x1024_1_1_0_0_n_n none a w (constant ⟨2, ![256, 1024]⟩ .f32 0x00000000#32) (ix2 p j)
      = ∑ k : Fin 1024, a (ix2 p k) * w (ix2 j k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p j) ((contrEquiv1 dot_S256x1024_S1024x1024_S256x1024_1_1_0_0_n_n 1024 rfl rfl).symm k) = ix2 p k := funext fun ax => Fin.ext (by
    match ax with
    | ⟨0, _⟩ =>
      show (dot_S256x1024_S1024x1024_S256x1024_1_1_0_0_n_n.lhsIdx (ix2 p j) _ 0).val = p.val
      unfold DotDims.lhsIdx
      rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
      rfl
    | ⟨1, _⟩ => exact (dot_S256x1024_S1024x1024_S256x1024_1_1_0_0_n_n.lhsIdx_val_of_single rfl _ _).trans hk)
  have er : dot_S256x1024_S1024x1024_S256x1024_1_1_0_0_n_n.rhsIdx (ix2 p j) ((contrEquiv1 dot_S256x1024_S1024x1024_S256x1024_1_1_0_0_n_n 1024 rfl rfl).symm k) = ix2 j k := funext fun ax => Fin.ext (by
    match ax with
    | ⟨0, _⟩ =>
      show (dot_S256x1024_S1024x1024_S256x1024_1_1_0_0_n_n.rhsIdx (ix2 p j) _ 0).val = j.val
      unfold DotDims.rhsIdx
      rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
      rfl
    | ⟨1, _⟩ => exact (dot_S256x1024_S1024x1024_S256x1024_1_1_0_0_n_n.rhsIdx_val_of_single rfl _ _).trans hk)
  rw [el, er]

end Cert.KernelIdeal.Pay

end
-- ==== Proof.LibColumn.lean ====
/-
  A column read at coordinates. An array of shape [a, 1] is a column: one value per row. Two layout operations make or
  spread a column, and each is read here at an index written by its coordinates:
    • a vector [a] reshaped into the column [a, 1] keeps row `p`'s value at (p, 0);
    • a column [a, 1] broadcast along a new second axis to [a, b] repeats row `p`'s value at every (p, c).
  Both are the general read-at-an-index lemmas of a shape cast and of a broadcast with the coordinates' arithmetic done:
  the row-major position of (p, 0) in [a, 1] is p·1 + 0, and a broadcast reads coordinate 0 on the operand's unit axis.
-/
import Idealize.ShloMosaic.Lib.ValueLayout

namespace Idealize.ShloMosaic.ValueIdx

open Idealize.ShloMosaic

variable {α : Type}

/-- An `[a]` array reshaped to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPay.lean ====
/-
  The cell body's arithmetic, read at one element of the output block, on the extended reals.
  For a block of 256 batch rows the body holds: the row blocks `x0`, `h0`; the two fused weights `wx` (five square weights stacked
  along the rows) and `wh` (four), the square weight `whh`, and five one-row biases.  Entry `(p, q)` of what it stores is the cell
  (Spec) of row `p` and unit `q`, with each square weight the corresponding stretch of rows of its fused weight.
-/
import proofs.«180495_j42683384987795_2_alg».proof.Proof.KernelDots
import proofs.«180495_j42683384987795_2_alg».proof.Proof.LibColumn
import Idealize.ShloMosaic.Lib.ValueLayout

set_option maxRecDepth 16384

noncomputable section

open scoped BigOperators

namespace Cert.KernelIdeal.Pay

open Cert.KernelIdeal Cert.KernelIdeal.Gen Idealize.ShloMosaic Idealize.ShloMosaic.ValueIdx Cert.Cell

/-- Rows `off … off + 1023` of a tall weight, as a square matrix. -/
def rowsAt {N : Nat} (w : Mat N 1024) (off : Nat) (h : off + 1024 ≤ N) : Mat 1024 1024 :=
  fun i => w (ix2 (⟨off + (i 0).val, by have := idx2_lt0 i; omega⟩ : Fin N) (i 1))

/-- A one-row matrix as a vector. -/
def rowVec (b : Mat 1 1024) : Vc 1024 := fun i => b (ix2 (0 : Fin 1) (i 0))

/-! ## The pointwise transcendentals at an index -/

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl
theorem exp_apply {s : Shape} (v : FVec Ideal s .f32) (i : s.Idx) : exp v i = Ideal.exp (v i) := rfl

/-! ## The layout steps of the body, each read at `(p, q)` -/

/-- A bias row spread over the block's rows reads its entry of column `q`. -/
theorem biasB (b : FVec Ideal S1x1024 .f32) (p : Fin 256) (q : Fin 1024) :
    broadcastTo S256x1024 (shapeCast S1x1024 b shapeCasts_S1x1024_S1x1024) broadcasts_S1x1024_S256x1024 (ix2 p q) = b (ix2 (0 : Fin 1) q) := by
  rw [shapeCast_self]
  exact broadcastTo_1b_ab_apply b _ p q

/-- The inserted index of a reduction along the columns: row `p` with column `k` put back. -/
theorem lift_cols (h : S256x1024.Reduces [1] S256) (p : Fin 256) (k : Fin (S256x1024.size 1)) :
    h.lift (ix1 p) k = ix2 p (⟨k.val, k.isLt⟩ : Fin 1024) := by
  funext c; apply Fin.ext
  fin_cases c <;> rfl

/-- The row maximum, joined with −∞ once more, made a column and spread over the row: at `(p, q)` it is the maximum of row `p`. -/
theorem rowMaxB (c : FVec Ideal S256x1024 .f32) (p : Fin 256) (q : Fin 1024) :
    broadcastTo S256x1024 (shapeCast S256x1 (maximumf (broadcast S256 (Scalar.ofBits (F := Ideal) .f32 0xFF800000#32))
        (multiReduction .maximumf [1] S256 c 0xFF800000#32 reduces_S256x1024_S256 (.inl rfl) rfl)) shapeCasts_S256_S256x1)
      broadcasts_S256x1_S256x1024 (ix2 p q)
      = max ninf ((Finset.univ : Finset (Fin 1024)).fold max ninf (fun k => c (ix2 p k))) := by
  refine (broadcastTo_a1_ab_apply _ _ p q).trans ((shapeCast_a_a1_apply _ _ p 0).trans ?_)
  refine congrArg (max ninf) ?_
  refine (Ideal.multiReduction_maximumf_single c 0xFF800000#32 reduces_S256x1024_S256 (.inl rfl) rfl (ix1 p)).trans ?_
  exact congrArg (fun f => Finset.fold max ninf f (Finset.univ : Finset (Fin 1024)))
    (funext fun k => congrArg c (lift_cols reduces_S256x1024_S256 p k))

/-- The row sum made a column and spread over the row: at `(p, q)` it is the sum of row `p`. -/
theorem rowSumB (e : FVec Ideal S256x1024 .f32) (p : Fin 256) (q : Fin 1024) :
    broadcastTo S256x1024 (shapeCast S256x1 (multiReduction .add [1] S256 e 0x00000000#32 reduces_S256x1024_S256 (.inl rfl) rfl)
        shapeCasts_S256_S256x1) broadcasts_S256x1_S256x1024 (ix2 p q)
      = ∑ k : Fin 1024, e (ix2 p k) := by
  refine (broadcastTo_a1_ab_apply _ _ p q).trans ((shapeCast_a_a1_apply _ _ p 0).trans ?_)
  refine (Ideal.multiReduction_add_single e 0x00000000#32 reduces_S256x1024_S256 (.inl rfl) rfl (ix1 p)).trans ?_
  exact Finset.sum_congr rfl fun k _ => congrArg e (lift_cols reduces_S256x1024_S256 p k)

/-! ## The slices of the two fused products -/

/-- A 1024-wide stretch of the fused x-side product at `(p, q)`: row `p` of the block against row `off + q` of the fused weight. -/
theorem xslice_apply (x0 : FVec Ideal S256x1024 .f32) (wx : FVec Ideal S5120x1024 .bf16) (off : Nat) (hoff : off + 1024 ≤ 5120)
    (hs : S256x5120.Slices ![0, off] S256x1024) (p : Fin 256) (q : Fin 1024) :
    extractStridedSlice S256x1024 ![0, off] (k0_pay2 (F := Ideal) x0 wx) hs (ix2 p q) = rowDot x0 (rowsAt wx off hoff) p q := by
  refine (slice2_axis1_apply off (k0_pay2 (F := Ideal) x0 wx) hs p q (⟨off + q.val, by omega⟩ : Fin 5120) rfl).trans ?_
  unfold k0_pay2
  rw [shapeCast_self]
  exact matmul5120_apply _ _ p _

/-- A 1024-wide stretch of the fused hidden-side product at `(p, q)`. -/
theorem hslice_apply (h0 : FVec Ideal S256x1024 .f32) (wh : FVec Ideal S4096x1024 .bf16) (off : Nat) (hoff : off + 1024 ≤ 4096)
    (hs : S256x4096.Slices ![0, off] S256x1024) (p : Fin 256) (q : Fin 1024) :
    extractStridedSlice S256x1024 ![0, off] (k0_pay3 (F := Ideal) h0 wh) hs (ix2 p q) = rowDot h0 (rowsAt wh off hoff) p q := by
  refine (slice2_axis1_apply off (k0_pay3 (F := Ideal) h0 wh) hs p q (⟨off + q.val, by omega⟩ : Fin 4096) rfl).trans ?_
  unfold k0_pay3
  rw [shapeCast_self]
  exact matmul4096_apply _ _ p _

theorem pay4_apply (x0 : FVec Ideal S256x1024 .f32) (wx : FVec Ideal S5120x1024 .bf16) (p : Fin 256) (q : Fin 1024) :
    k0_pay4 (F := Ideal) x0 wx (ix2 p q) = rowDot x0 (rowsAt wx 3072 (by omega)) p q := by
  unfold k0_pay4
  exact xslice_apply x0 wx 3072 (by omega) _ p q
theorem pay5_apply (x0 : FVec Ideal S256x1024 .f32) (wx : FVec Ideal S5120x1024 .bf16) (p : Fin 256) (q : Fin 1024) :
    k0_pay5 (F := Ideal) x0 wx (ix2 p q) = rowDot x0 (rowsAt wx 4096 (by omega)) p q := by
  unfold k0_pay5
  exact xslice_apply x0 wx 4096 (by omega) _ p q
theorem pay6_apply (h0 : FVec Ideal S256x1024 .f32) (wh : FVec Ideal S4096x1024 .bf16) (p : Fin 256) (q : Fin 1024) :
    k0_pay6 (F := Ideal) h0 wh (ix2 p q) = rowDot h0 (rowsAt wh 2048 (by omega)) p q := by
  unfold k0_pay6
  exact hslice_apply h0 wh 2048 (by omega) _ p q
theorem pay7_apply (h0 : FVec Ideal S256x1024 .f32) (wh : FVec Ideal S4096x1024 .bf16) (p : Fin 256) (q : Fin 1024) :
    k0_pay7 (F := Ideal) h0 wh (ix2 p q) = rowDot h0 (rowsAt wh 3072 (by omega)) p q := by
  unfold k0_pay7
  exact hslice_apply h0 wh 3072 (by omega) _ p q

/-! ## The gates, the candidate's argument, the bias row -/

/-- The update gate. -/
theorem pay8_apply (x0 h0 : FVec Ideal S256x1024 .f32) (wx : FVec Ideal S5120x1024 .bf16) (wh : FVec Ideal S4096x1024 .bf16)
    (b6 : FVec Ideal S1x1024 .f32) (p : Fin 256) (q : Fin 1024) :
    k0_pay8 (F := Ideal) x0 h0 wx wh b6 (ix2 p q) = gate x0 h0 (rowsAt wx 1024 (by omega)) (rowsAt wh 1024 (by omega)) (rowVec b6) p q := by
  unfold k0_pay8
  rw [logistic_apply, addf_apply, addf_apply, xslice_apply x0 wx 1024 (by omega), hslice_apply h0 wh 1024 (by omega), biasB]
  rfl

/-- The candidate's argument before its bias: the x-side stretch plus the product of the reset-scaled hidden row. -/
theorem pay9_apply (x0 h0 : FVec Ideal S256x1024 .f32) (wx : FVec Ideal S5120x1024 .bf16) (wh : FVec Ideal S4096x1024 .bf16)
    (b5 : FVec Ideal S1x1024 .f32) (whh : FVec Ideal S1024x1024 .bf16) (p : Fin 256) (q : Fin 1024) :
    k0_pay9 (F := Ideal) x0 h0 wx wh b5 whh (ix2 p q)
      = rowDot x0 (rowsAt wx 2048 (by omega)) p q
        + ∑ k : Fin 1024, (gate x0 h0 (rowsAt wx 0 (by omega)) (rowsAt wh 0 (by omega)) (rowVec b5) p k * h0 (ix2 p k)) * whh (ix2 q k) := by
  unfold k0_pay9
  rw [addf_apply, xslice_apply x0 wx 2048 (by omega), matmul1024_apply]
  refine congrArg (rowDot x0 (rowsAt wx 2048 (by omega)) p q + ·) (Finset.sum_congr rfl fun k _ => ?_)
  rw [shapeCast_self whh]
  refine congrArg (· * whh (ix2 q k)) ?_
  show logistic _ (ix2 p k) * h0 (ix2 p k) = _
  rw [logistic_apply, addf_apply, addf_apply, xslice_apply x0 wx 0 (by omega), hslice_apply h0 wh 0 (by omega), biasB]
  rfl

/-- The candidate's bias row spread over the block. -/
theorem pay10_apply (b7 : FVec Ideal S1x1024 .f32) (p : Fin 256) (q : Fin 1024) :
    k0_pay10 (F := Ideal) b7 (ix2 p q) = b7 (ix2 (0 : Fin 1) q) := by
  unfold k0_pay10
  exact biasB b7 p q

/-! ## The body's last value -/

/-- The score of row `p` at column `k`, from the two stretches and the bias row the body holds. -/
def sc (v13 v17 : Mat 256 1024) (v43 : Mat 1 1024) (p : Fin 256) (k : Fin 1024) : EReal :=
  (v13 (ix2 p k) + v17 (ix2 p k)) + v43 (ix2 (0 : Fin 1) k)

/-- The largest score of row `p`. -/
def mxOf (v13 v17 : Mat 256 1024) (v43 : Mat 1 1024) (p : Fin 256) : EReal :=
  max ninf ((Finset.univ : Finset (Fin 1024)).fold max ninf (fun k => sc v13 v17 v43 p k))

/-- The stored value at `(p, q)` from the ten values it is computed from: the gated mix of the candidate and the old state,
    plus the softmax weight of the row's scores times the rectified second projection. -/
theorem pay1_apply (v1 v13 v14 v17 v18 v30 v36 v39 : FVec Ideal S256x1024 .f32) (v43 v59 : FVec Ideal S1x1024 .f32)
    (p : Fin 256) (q : Fin 1024) :
    k0_pay1 (F := Ideal) v1 v13 v14 v17 v18 v30 v36 v39 v43 v59 (ix2 p q)
      = ((one - v30 (ix2 p q)) * Ideal.tanh (v36 (ix2 p q) + v39 (ix2 p q)) + v30 (ix2 p q) * v1 (ix2 p q))
        + Ideal.div (Ideal.exp (sc v13 v17 v43 p q - mxOf v13 v17 v43 p))
            (∑ k : Fin 1024, Ideal.exp (sc v13 v17 v43 p k - mxOf v13 v17 v43 p))
          * max ((v14 (ix2 p q) + v18 (ix2 p q)) + v59 (ix2 (0 : Fin 1) q)) zer := by
  have key : ∀ k : Fin 1024, (addf (addf v13 v17) (broadcastTo S256x1024 (shapeCast S1x1024 v43 shapeCasts_S1x1024_S1x1024) broadcasts_S1x1024_S256x1024)) (ix2 p k) = sc v13 v17 v43 p k := fun k => by
    rw [addf_apply, addf_apply, biasB]
    rfl
  have hmx : ∀ k : Fin 1024,
      broadcastTo S256x1024 (shapeCast S256x1 (maximumf (broadcast S256 (Scalar.ofBits (F := Ideal) .f32 0xFF800000#32))
          (multiReduction .maximumf [1] S256 (addf (addf v13 v17) (broadcastTo S256x1024 (shapeCast S1x1024 v43 shapeCasts_S1x1024_S1x1024) broadcasts_S1x1024_S256x1024)) 0xFF800000#32 reduces_S256x1024_S256 (.inl rfl) rfl)) shapeCasts_S256_S256x1)
        broadcasts_S256x1_S256x1024 (ix2 p k) = mxOf v13 v17 v43 p := fun k => by
    rw [rowMaxB]
    unfold mxOf
    simp only [key]
  unfold k0_pay1
  simp only [addf_apply, mulf_apply, subf_apply, divf_apply, maximumf_apply, broadcast_apply, tanh_apply, exp_apply]
  rw [hmx q, rowSumB, biasB, biasB]
  refine congrArg₂ (· + ·) rfl (congrArg₂ (· * ·) (congrArg₂ Ideal.div rfl (Finset.sum_congr rfl fun k _ => ?_)) rfl)
  rw [exp_apply, subf_apply, hmx k, key k]

/-! ## The block's entry is the cell -/

/-- The cell of a row reads the two batch matrices only along that row. -/
theorem cell_row_congr {B B' : Nat} (x h : Mat B 1024) (x' h' : Mat B' 1024)
    (wxr whr : Mat 1024 1024) (br : Vc 1024) (wxz whz : Mat 1024 1024) (bz : Vc 1024) (wxh whh : Mat 1024 1024) (bh : Vc 1024)
    (wcl wcr : Mat 1024 1024) (bc : Vc 1024) (wal war : Mat 1024 1024) (bhat : Vc 1024) (r : Fin B) (r' : Fin B')
    (hx : ∀ k, x (ix2 r k) = x' (ix2 r' k)) (hh : ∀ k, h (ix2 r k) = h' (ix2 r' k)) (j : Fin 1024) :
    cell x h wxr whr br wxz whz bz wxh whh bh wcl wcr bc wal war bhat r j = cell x' h' wxr whr br wxz whz bz wxh whh bh wcl wcr bc wal war bhat r' j := by
  unfold cell attn expo rowMax joint cand gate rowDot
  simp only [hx, hh]

/-- ENTRY `(p, q)` OF WHAT THE BODY STORES, when row `p` of its two row blocks is row `r` of the whole batch matrices: the cell
    of row `r` and unit `q`, each square weight the corresponding stretch of rows of the fused weight it was stacked into. -/
theorem block_cell (X H : Mat 8192 1024) (x0 h0 : FVec Ideal S256x1024 .f32) (wx : FVec Ideal S5120x1024 .bf16)
    (wh : FVec Ideal S4096x1024 .bf16) (whh : FVec Ideal S1024x1024 .bf16) (b5 b6 b7 b8 b9 : FVec Ideal S1x1024 .f32)
    (r : Fin 8192) (p : Fin 256) (q : Fin 1024)
    (hx : ∀ k, x0 (ix2 p k) = X (ix2 r k)) (hh : ∀ k, h0 (ix2 p k) = H (ix2 r k)) :
    k0_pay1 (F := Ideal) h0 (k0_pay4 x0 wx) (k0_pay5 x0 wx) (k0_pay6 h0 wh) (k0_pay7 h0 wh) (k0_pay8 x0 h0 wx wh b6)
        (k0_pay9 x0 h0 wx wh b5 whh) (k0_pay10 b7) b8 b9 (ix2 p q)
      = cell X H (rowsAt wx 0 (by omega)) (rowsAt wh 0 (by omega)) (rowVec b5) (rowsAt wx 1024 (by omega)) (rowsAt wh 1024 (by omega)) (rowVec b6)
          (rowsAt wx 2048 (by omega)) whh (rowVec b7) (rowsAt wx 3072 (by omega)) (rowsAt wh 2048 (by omega)) (rowVec b8)
          (rowsAt wx 4096 (by omega)) (rowsAt wh 3072 (by omega)) (rowVec b9) r q := by
  refine Eq.trans ?_ (cell_row_congr x0 h0 X H _ _ _ _ _ _ _ _ _ _ _ _ _ _ _ p r hx hh q)
  rw [pay1_apply]
  have hsc : ∀ k, sc (k0_pay4 (F := Ideal) x0 wx) (k0_pay6 (F := Ideal) h0 wh) b8 p k
      = joint x0 h0 (rowsAt wx 3072 (by omega)) (rowsAt wh 2048 (by omega)) (rowVec b8) p k := fun k => by
    unfold sc joint
    rw [pay4_apply, pay6_apply]
    rfl
  unfold mxOf
  simp only [hsc, pay8_apply, pay9_apply, pay10_apply, pay5_apply, pay7_apply]
  rfl

/-- The same at any index `y` of the block, its two coordinates the row and the unit. -/
theorem block_cell_idx (X H : Mat 8192 1024) (x0 h0 : FVec Ideal S256x1024 .f32) (wx : FVec Ideal S5120x1024 .bf16)
    (wh : FVec Ideal S4096x1024 .bf16) (whh : FVec Ideal S1024x1024 .bf16) (b5 b6 b7 b8 b9 : FVec Ideal S1x1024 .f32)
    (y : S256x1024.Idx) (r : Fin 8192) (j : Fin 1024) (hj : j = y 1)
    (hx : ∀ k : Fin 1024, x0 (ix2 (y 0) k) = X (ix2 r k)) (hh : ∀ k : Fin 1024, h0 (ix2 (y 0) k) = H (ix2 r k)) :
    k0_pay1 (F := Ideal) h0 (k0_pay4 x0 wx) (k0_pay5 x0 wx) (k0_pay6 h0 wh) (k0_pay7 h0 wh) (k0_pay8 x0 h0 wx wh b6)
        (k0_pay9 x0 h0 wx wh b5 whh) (k0_pay10 b7) b8 b9 y
      = cell X H (rowsAt wx 0 (by omega)) (rowsAt wh 0 (by omega)) (rowVec b5) (rowsAt wx 1024 (by omega)) (rowsAt wh 1024 (by omega)) (rowVec b6)
          (rowsAt wx 2048 (by omega)) whh (rowVec b7) (rowsAt wx 3072 (by omega)) (rowsAt wh 2048 (by omega)) (rowVec b8)
          (rowsAt wx 4096 (by omega)) (rowsAt wh 3072 (by omega)) (rowVec b9) r j := by
  obtain ⟨p, q, rfl⟩ : ∃ (p : Fin 256) (q : Fin 1024), y = ix2 p q := ⟨y 0, y 1, eq_ix2 y⟩
  rw [hj]
  exact block_cell X H x0 h0 wx wh whh b5 b6 b7 b8 b9 r p q hx hh

end Cert.KernelIdeal.Pay

end
-- ==== Proof.Stack.lean ====
/-
  Square matrices stacked along the rows, read at an index: the row's position among the pieces' extents names the piece, and
  the entry is that piece's entry at the row's offset inside it.
-/
import Idealize.ShloMosaic.Lib.ValueIdx
import Idealize.ShloMosaic.Lib.Pipeline.Value

set_option maxRecDepth 16384

noncomputable section

namespace Cert.Cell.Stack

open Idealize.ShloMosaic Idealize.ShloMosaic.ValueIdx

/-- 5 square matrices stacked along the rows: row `0 + r` of the stack is row `r` of piece 0. -/
theorem stack5_piece0 {α : Type} (a0 a1 a2 a3 a4 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape), (⟨2, ![1024, 1024]⟩ : Shape)] (⟨2, ![5120, 1024]⟩ : Shape) 0) (r q : Fin 1024) :
    concatenate (⟨2, ![5120, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc (ix2 (⟨0 + r.val, by omega⟩ : Fin 5120) q) = a0 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] : List ((s : Shape) × (s.Idx → α)))) (⟨2, ![5120, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc' (ix2 (⟨0 + r.val, by omega⟩ : Fin 5120) q) 0 (by simp) (⟨2, ![1024, 1024]⟩ : Shape) a0 rfl rfl 0 (by rfl) (ix2 r q) (fun b hb => ?_) (by rfl)
  match b with
  | ⟨0, _⟩ => exact absurd rfl hb
  | ⟨1, _⟩ => rfl

/-- 5 square matrices stacked along the rows: row `1024 + r` of the stack is row `r` of piece 1. -/
theorem stack5_piece1 {α : Type} (a0 a1 a2 a3 a4 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape), (⟨2, ![1024, 1024]⟩ : Shape)] (⟨2, ![5120, 1024]⟩ : Shape) 0) (r q : Fin 1024) :
    concatenate (⟨2, ![5120, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc (ix2 (⟨1024 + r.val, by omega⟩ : Fin 5120) q) = a1 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] : List ((s : Shape) × (s.Idx → α)))) (⟨2, ![5120, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc' (ix2 (⟨1024 + r.val, by omega⟩ : Fin 5120) q) 1 (by simp) (⟨2, ![1024, 1024]⟩ : Shape) a1 rfl rfl 1024 (by rfl) (ix2 r q) (fun b hb => ?_) (by rfl)
  match b with
  | ⟨0, _⟩ => exact absurd rfl hb
  | ⟨1, _⟩ => rfl

/-- 5 square matrices stacked along the rows: row `2048 + r` of the stack is row `r` of piece 2. -/
theorem stack5_piece2 {α : Type} (a0 a1 a2 a3 a4 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape), (⟨2, ![1024, 1024]⟩ : Shape)] (⟨2, ![5120, 1024]⟩ : Shape) 0) (r q : Fin 1024) :
    concatenate (⟨2, ![5120, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc (ix2 (⟨2048 + r.val, by omega⟩ : Fin 5120) q) = a2 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] : List ((s : Shape) × (s.Idx → α)))) (⟨2, ![5120, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc' (ix2 (⟨2048 + r.val, by omega⟩ : Fin 5120) q) 2 (by simp) (⟨2, ![1024, 1024]⟩ : Shape) a2 rfl rfl 2048 (by rfl) (ix2 r q) (fun b hb => ?_) (by rfl)
  match b with
  | ⟨0, _⟩ => exact absurd rfl hb
  | ⟨1, _⟩ => rfl

/-- 5 square matrices stacked along the rows: row `3072 + r` of the stack is row `r` of piece 3. -/
theorem stack5_piece3 {α : Type} (a0 a1 a2 a3 a4 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape), (⟨2, ![1024, 1024]⟩ : Shape)] (⟨2, ![5120, 1024]⟩ : Shape) 0) (r q : Fin 1024) :
    concatenate (⟨2, ![5120, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc (ix2 (⟨3072 + r.val, by omega⟩ : Fin 5120) q) = a3 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] : List ((s : Shape) × (s.Idx → α)))) (⟨2, ![5120, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc' (ix2 (⟨3072 + r.val, by omega⟩ : Fin 5120) q) 3 (by simp) (⟨2, ![1024, 1024]⟩ : Shape) a3 rfl rfl 3072 (by rfl) (ix2 r q) (fun b hb => ?_) (by rfl)
  match b with
  | ⟨0, _⟩ => exact absurd rfl hb
  | ⟨1, _⟩ => rfl

/-- 5 square matrices stacked along the rows: row `4096 + r` of the stack is row `r` of piece 4. -/
theorem stack5_piece4 {α : Type} (a0 a1 a2 a3 a4 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape), (⟨2, ![1024, 1024]⟩ : Shape)] (⟨2, ![5120, 1024]⟩ : Shape) 0) (r q : Fin 1024) :
    concatenate (⟨2, ![5120, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc (ix2 (⟨4096 + r.val, by omega⟩ : Fin 5120) q) = a4 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] : List ((s : Shape) × (s.Idx → α)))) (⟨2, ![5120, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩, ⟨(⟨2, ![1024, 1024]⟩ : Shape), a4⟩] hc' (ix2 (⟨4096 + r.val, by omega⟩ : Fin 5120) q) 4 (by simp) (⟨2, ![1024, 1024]⟩ : Shape) a4 rfl rfl 4096 (by rfl) (ix2 r q) (fun b hb => ?_) (by rfl)
  match b with
  | ⟨0, _⟩ => exact absurd rfl hb
  | ⟨1, _⟩ => rfl

/-- 4 square matrices stacked along the rows: row `0 + r` of the stack is row `r` of piece 0. -/
theorem stack4_piece0 {α : Type} (a0 a1 a2 a3 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape)] (⟨2, ![4096, 1024]⟩ : Shape) 0) (r q : Fin 1024) :
    concatenate (⟨2, ![4096, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc (ix2 (⟨0 + r.val, by omega⟩ : Fin 4096) q) = a0 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] : List ((s : Shape) × (s.Idx → α)))) (⟨2, ![4096, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc' (ix2 (⟨0 + r.val, by omega⟩ : Fin 4096) q) 0 (by simp) (⟨2, ![1024, 1024]⟩ : Shape) a0 rfl rfl 0 (by rfl) (ix2 r q) (fun b hb => ?_) (by rfl)
  match b with
  | ⟨0, _⟩ => exact absurd rfl hb
  | ⟨1, _⟩ => rfl

/-- 4 square matrices stacked along the rows: row `1024 + r` of the stack is row `r` of piece 1. -/
theorem stack4_piece1 {α : Type} (a0 a1 a2 a3 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape)] (⟨2, ![4096, 1024]⟩ : Shape) 0) (r q : Fin 1024) :
    concatenate (⟨2, ![4096, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc (ix2 (⟨1024 + r.val, by omega⟩ : Fin 4096) q) = a1 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] : List ((s : Shape) × (s.Idx → α)))) (⟨2, ![4096, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc' (ix2 (⟨1024 + r.val, by omega⟩ : Fin 4096) q) 1 (by simp) (⟨2, ![1024, 1024]⟩ : Shape) a1 rfl rfl 1024 (by rfl) (ix2 r q) (fun b hb => ?_) (by rfl)
  match b with
  | ⟨0, _⟩ => exact absurd rfl hb
  | ⟨1, _⟩ => rfl

/-- 4 square matrices stacked along the rows: row `2048 + r` of the stack is row `r` of piece 2. -/
theorem stack4_piece2 {α : Type} (a0 a1 a2 a3 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape)] (⟨2, ![4096, 1024]⟩ : Shape) 0) (r q : Fin 1024) :
    concatenate (⟨2, ![4096, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc (ix2 (⟨2048 + r.val, by omega⟩ : Fin 4096) q) = a2 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] : List ((s : Shape) × (s.Idx → α)))) (⟨2, ![4096, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc' (ix2 (⟨2048 + r.val, by omega⟩ : Fin 4096) q) 2 (by simp) (⟨2, ![1024, 1024]⟩ : Shape) a2 rfl rfl 2048 (by rfl) (ix2 r q) (fun b hb => ?_) (by rfl)
  match b with
  | ⟨0, _⟩ => exact absurd rfl hb
  | ⟨1, _⟩ => rfl

/-- 4 square matrices stacked along the rows: row `3072 + r` of the stack is row `r` of piece 3. -/
theorem stack4_piece3 {α : Type} (a0 a1 a2 a3 : (⟨2, ![1024, 1024]⟩ : Shape).Idx → α)
    (hc : Shape.Concatenates [(⟨2, ![1024, 1024]⟩ : Shape), (⟨2, ![1024, 1024]⟩ : Shape), (⟨2, ![1024, 1024]⟩ : Shape), (⟨2, ![1024, 1024]⟩ : Shape)] (⟨2, ![4096, 1024]⟩ : Shape) 0) (r q : Fin 1024) :
    concatenate (⟨2, ![4096, 1024]⟩ : Shape) 0 [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc (ix2 (⟨3072 + r.val, by omega⟩ : Fin 4096) q) = a3 (ix2 r q) := by
  have hc' : Shape.Concatenates (List.map (·.1) ([⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] : List ((s : Shape) × (s.Idx → α)))) (⟨2, ![4096, 1024]⟩ : Shape) 0 := hc
  refine concatenate_apply_piece (0 : Fin 2) [⟨(⟨2, ![1024, 1024]⟩ : Shape), a0⟩, ⟨(⟨2, ![1024, 1024]⟩ : Shape), a1⟩, ⟨(⟨2, ![1024, 1024]⟩ : Shape), a2⟩, ⟨(⟨2, ![1024, 1024]⟩ : Shape), a3⟩] hc' (ix2 (⟨3072 + r.val, by omega⟩ : Fin 4096) q) 3 (by simp) (⟨2, ![1024, 1024]⟩ : Shape) a3 rfl rfl 3072 (by rfl) (ix2 r q) (fun b hb => ?_) (by rfl)
  match b with
  | ⟨0, _⟩ => exact absurd rfl hb
  | ⟨1, _⟩ => rfl

end Cert.Cell.Stack

end
-- ==== Proof.KernelEntry.lean ====
import proofs.«180495_j42683384987795_2_alg».proof.Proof.FrameIdeal
import proofs.«180495_j42683384987795_2_alg».proof.Proof.Stack
import proofs.«180495_j42683384987795_2_alg».proof.Proof.Spec
import proofs.«180495_j42683384987795_2_alg».proof.Proof.KernelPay
import Idealize.ShloMosaic.PureOps.Ideal
import Idealize.ShloMosaic.Lib.ValueLayout
import Idealize.ShloMosaic.Lib.StableHlo.Run

/-!
# The idealized kernel's run, read at the arguments

Two things are read off the frame of the idealized kernel, with floats as extended reals. First,
what the eight windows whose arrays the host operations wrote hold when the region is entered, as
functions of the fifteen arguments. Second, the run itself with the result array named: after the
run the result array is what the description of the pipeline computes for the output window, and
every argument is unchanged.
-/

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The host operations' results, read back

The fourteen host operations write fourteen intermediate arrays. What one of them holds afterwards
is a computation: going through the operations from the last to the first, an operation that does
not write the array is skipped, and the one that does contributes its function applied to what its
operands hold, which are then unfolded in the same way. -/

/-- The result of an operation with five operands, each operand's contents at its own reference
    (and not under a binder over the operands' positions), so that they can be unfolded further. -/
theorem nary5_result {Val : EltTy → Type} {x a b d e y : Ref sig .tc}
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

/-- One pass over the host operations, last to first, as described above. -/
local macro "host_results" : tactic =>
  `(tactic| (simp only [StableHlo.after_cons, StableHlo.after_nil]
             repeat (first
               | rw [StableHlo.unary_result] | rw [StableHlo.reshape_result]
               | rw [nary5_result] | rw [StableHlo.nary4_result]
               | (rw [StableHlo.unary_result_ne]; rotate_left; decide)
               | (rw [StableHlo.reshape_result_ne]; rotate_left; decide)
               | (rw [StableHlo.nary_result_ne]; rotate_left; decide))))

/-- The stacked input-side weight: the three square weights and the left halves of the two
    double-width weights, one above the other, each entry kept as it is. -/
theorem v5_eq (c : Dev nD) : (Hand.V m c main_v5 : S5120x1024.Idx → EReal)
    = truncf (F := Ideal) .bf16 (concatenate S5120x1024 0
        [⟨S1024x1024, m (c, Proc.devRef .tc main_arg2)⟩, ⟨S1024x1024, m (c, Proc.devRef .tc main_arg5)⟩,
         ⟨S1024x1024, m (c, Proc.devRef .tc main_arg8)⟩,
         ⟨S1024x1024, extractStridedSlice S1024x1024 ![0, 0] (m (c, Proc.devRef .tc main_arg11)) slices_S1024x2048_S1024x1024_0_0⟩,
         ⟨S1024x1024, extractStridedSlice S1024x1024 ![0, 0] (m (c, Proc.devRef .tc main_arg13)) slices_S1024x2048_S1024x1024_0_0⟩]
        concatenates_S1024x1024_S1024x1024_S1024x1024_S1024x1024_S1024x1024_S5120x1024_d0) bitsLt_bf16_f32 := by
  dsimp only [Hand.V, hostOps0]; host_results <;> rfl

/-- The stacked hidden-side weight: two square weights and the right halves of the two double-width
    weights. -/
theorem v7_eq (c : Dev nD) : (Hand.V m c main_v7 : S4096x1024.Idx → EReal)
    = truncf (F := Ideal) .bf16 (concatenate S4096x1024 0
        [⟨S1024x1024, m (c, Proc.devRef .tc main_arg3)⟩, ⟨S1024x1024, m (c, Proc.devRef .tc main_arg6)⟩,
         ⟨S1024x1024, extractStridedSlice S1024x1024 ![0, 1024] (m (c, Proc.devRef .tc main_arg11)) slices_S1024x2048_S1024x1024_0_1024⟩,
         ⟨S1024x1024, extractStridedSlice S1024x1024 ![0, 1024] (m (c, Proc.devRef .tc main_arg13)) slices_S1024x2048_S1024x1024_0_1024⟩]
        concatenates_S1024x1024_S1024x1024_S1024x1024_S1024x1024_S4096x1024_d0) bitsLt_bf16_f32 := by
  dsimp only [Hand.V, hostOps0]; host_results <;> rfl

theorem v8_eq (c : Dev nD) : (Hand.V m c main_v8 : S1024x1024.Idx → EReal)
    = truncf (F := Ideal) .bf16 (m (c, Proc.devRef .tc main_arg9)) bitsLt_bf16_f32 := by
  dsimp only [Hand.V, hostOps0]; host_results <;> rfl

theorem v9_eq (c : Dev nD) : (Hand.V m c main_v9 : S1x1024.Idx → EReal)
    = shapeCast S1x1024 (m (c, Proc.devRef .tc main_arg4)) shapeCasts_S1024_S1x1024 := by
  dsimp only [Hand.V, hostOps0]; host_results <;> rfl
theorem v10_eq (c : Dev nD) : (Hand.V m c main_v10 : S1x1024.Idx → EReal)
    = shapeCast S1x1024 (m (c, Proc.devRef .tc main_arg7)) shapeCasts_S1024_S1x1024 := by
  dsimp only [Hand.V, hostOps0]; host_results <;> rfl
theorem v11_eq (c : Dev nD) : (Hand.V m c main_v11 : S1x1024.Idx → EReal)
    = shapeCast S1x1024 (m (c, Proc.devRef .tc main_arg10)) shapeCasts_S1024_S1x1024 := by
  dsimp only [Hand.V, hostOps0]; host_results <;> rfl
theorem v12_eq (c : Dev nD) : (Hand.V m c main_v12 : S1x1024.Idx → EReal)
    = shapeCast S1x1024 (m (c, Proc.devRef .tc main_arg12)) shapeCasts_S1024_S1x1024 := by
  dsimp only [Hand.V, hostOps0]; host_results <;> rfl
theorem v13_eq (c : Dev nD) : (Hand.V m c main_v13 : S1x1024.Idx → EReal)
    = shapeCast S1x1024 (m (c, Proc.devRef .tc main_arg14)) shapeCasts_S1024_S1x1024 := by
  dsimp only [Hand.V, hostOps0]; host_results <;> rfl

/-! ## The stacked weights, one block of 1024 rows at a time

Rows `1024·k … 1024·k + 1023` of a stack are its `k`-th piece. A piece is an argument as it is, or
the left or the right half of a double-width argument. Changing the float format changes nothing
on the extended reals. -/

theorem wx_rows0 (c : Dev nD) :
    Pay.rowsAt (N := 5120) (Hand.V m c main_v5) 0 (by omega) = m ((c : Thread nD τ).loc main_arg2) := by
  funext i
  refine (congrFun (v5_eq m c) _).trans ?_
  rw [truncf_apply]
  refine (Cert.Cell.Stack.stack5_piece0 _ _ _ _ _ _ (i 0) (i 1)).trans ?_
  exact congrArg _ (eq_ix2 i).symm
theorem wx_rows1 (c : Dev nD) :
    Pay.rowsAt (N := 5120) (Hand.V m c main_v5) 1024 (by omega) = m ((c : Thread nD τ).loc main_arg5) := by
  funext i
  refine (congrFun (v5_eq m c) _).trans ?_
  rw [truncf_apply]
  refine (Cert.Cell.Stack.stack5_piece1 _ _ _ _ _ _ (i 0) (i 1)).trans ?_
  exact congrArg _ (eq_ix2 i).symm
theorem wx_rows2 (c : Dev nD) :
    Pay.rowsAt (N := 5120) (Hand.V m c main_v5) 2048 (by omega) = m ((c : Thread nD τ).loc main_arg8) := by
  funext i
  refine (congrFun (v5_eq m c) _).trans ?_
  rw [truncf_apply]
  refine (Cert.Cell.Stack.stack5_piece2 _ _ _ _ _ _ (i 0) (i 1)).trans ?_
  exact congrArg _ (eq_ix2 i).symm
theorem wx_rows3 (c : Dev nD) :
    Pay.rowsAt (N := 5120) (Hand.V m c main_v5) 3072 (by omega)
      = Cert.Cell.leftHalf (n := 1024) (m ((c : Thread nD τ).loc main_arg11)) := by
  funext i
  refine (congrFun (v5_eq m c) _).trans ?_
  rw [truncf_apply]
  refine (Cert.Cell.Stack.stack5_piece3 _ _ _ _ _ _ (i 0) (i 1)).trans ?_
  exact slice2_axis1_apply 0 _ _ (i 0) (i 1) (⟨(i 1).val, by have := idx2_lt1 i; omega⟩ : Fin 2048) (Nat.zero_add _).symm
theorem wx_rows4 (c : Dev nD) :
    Pay.rowsAt (N := 5120) (Hand.V m c main_v5) 4096 (by omega)
      = Cert.Cell.leftHalf (n := 1024) (m ((c : Thread nD τ).loc main_arg13)) := by
  funext i
  refine (congrFun (v5_eq m c) _).trans ?_
  rw [truncf_apply]
  refine (Cert.Cell.Stack.stack5_piece4 _ _ _ _ _ _ (i 0) (i 1)).trans ?_
  exact slice2_axis1_apply 0 _ _ (i 0) (i 1) (⟨(i 1).val, by have := idx2_lt1 i; omega⟩ : Fin 2048) (Nat.zero_add _).symm
theorem wh_rows0 (c : Dev nD) :
    Pay.rowsAt (N := 4096) (Hand.V m c main_v7) 0 (by omega) = m ((c : Thread nD τ).loc main_arg3) := by
  funext i
  refine (congrFun (v7_eq m c) _).trans ?_
  rw [truncf_apply]
  refine (Cert.Cell.Stack.stack4_piece0 _ _ _ _ _ (i 0) (i 1)).trans ?_
  exact congrArg _ (eq_ix2 i).symm
theorem wh_rows1 (c : Dev nD) :
    Pay.rowsAt (N := 4096) (Hand.V m c main_v7) 1024 (by omega) = m ((c : Thread nD τ).loc main_arg6) := by
  funext i
  refine (congrFun (v7_eq m c) _).trans ?_
  rw [truncf_apply]
  refine (Cert.Cell.Stack.stack4_piece1 _ _ _ _ _ (i 0) (i 1)).trans ?_
  exact congrArg _ (eq_ix2 i).symm
theorem wh_rows2 (c : Dev nD) :
    Pay.rowsAt (N := 4096) (Hand.V m c main_v7) 2048 (by omega)
      = Cert.Cell.rightHalf (n := 1024) (m ((c : Thread nD τ).loc main_arg11)) := by
  funext i
  refine (congrFun (v7_eq m c) _).trans ?_
  rw [truncf_apply]
  refine (Cert.Cell.Stack.stack4_piece2 _ _ _ _ _ (i 0) (i 1)).trans ?_
  exact slice2_axis1_apply 1024 _ _ (i 0) (i 1) (⟨1024 + (i 1).val, by have := idx2_lt1 i; omega⟩ : Fin 2048) rfl
theorem wh_rows3 (c : Dev nD) :
    Pay.rowsAt (N := 4096) (Hand.V m c main_v7) 3072 (by omega)
      = Cert.Cell.rightHalf (n := 1024) (m ((c : Thread nD τ).loc main_arg13)) := by
  funext i
  refine (congrFun (v7_eq m c) _).trans ?_
  rw [truncf_apply]
  refine (Cert.Cell.Stack.stack4_piece3 _ _ _ _ _ (i 0) (i 1)).trans ?_
  exact slice2_axis1_apply 1024 _ _ (i 0) (i 1) (⟨1024 + (i 1).val, by have := idx2_lt1 i; omega⟩ : Fin 2048) rfl

/-- The square weight of the candidate state is its argument, entry by entry. -/
theorem whh_eq (c : Dev nD) : (Hand.V m c main_v8 : S1024x1024.Idx → EReal) = m ((c : Thread nD τ).loc main_arg9) :=
  (v8_eq m c).trans (funext fun i => rfl)

/-! ## The biases: a vector of 1024 entries laid out as one row -/

theorem bias5 (c : Dev nD) : Pay.rowVec (Hand.V m c main_v9) = m ((c : Thread nD τ).loc main_arg4) := by
  funext i
  refine (congrFun (v9_eq m c) _).trans ?_
  refine (shapeCast_a_1a_apply _ _ (0 : Fin 1) (i 0)).trans ?_
  exact congrArg _ (eq_ix1 i).symm
theorem bias6 (c : Dev nD) : Pay.rowVec (Hand.V m c main_v10) = m ((c : Thread nD τ).loc main_arg7) := by
  funext i
  refine (congrFun (v10_eq m c) _).trans ?_
  refine (shapeCast_a_1a_apply _ _ (0 : Fin 1) (i 0)).trans ?_
  exact congrArg _ (eq_ix1 i).symm
theorem bias7 (c : Dev nD) : Pay.rowVec (Hand.V m c main_v11) = m ((c : Thread nD τ).loc main_arg10) := by
  funext i
  refine (congrFun (v11_eq m c) _).trans ?_
  refine (shapeCast_a_1a_apply _ _ (0 : Fin 1) (i 0)).trans ?_
  exact congrArg _ (eq_ix1 i).symm
theorem bias8 (c : Dev nD) : Pay.rowVec (Hand.V m c main_v12) = m ((c : Thread nD τ).loc main_arg12) := by
  funext i
  refine (congrFun (v12_eq m c) _).trans ?_
  refine (shapeCast_a_1a_apply _ _ (0 : Fin 1) (i 0)).trans ?_
  exact congrArg _ (eq_ix1 i).symm
theorem bias9 (c : Dev nD) : Pay.rowVec (Hand.V m c main_v13) = m ((c : Thread nD τ).loc main_arg14) := by
  funext i
  refine (congrFun (v13_eq m c) _).trans ?_
  refine (shapeCast_a_1a_apply _ _ (0 : Fin 1) (i 0)).trans ?_
  exact congrArg _ (eq_ix1 i).symm

/-! ## The run with the result array named -/

/-- After the run the result array holds what the description computes for the output window
    after all 32 points. -/
theorem post10 (r : PUnit × MemSt nD τ sig (Elt Ideal)) (h : Pipeline.FramePost cfgs (Hand.dats m) 0 (Hand.V m) r) (c : Dev nD) :
    r.2.mem ((c : Thread nD τ).loc main_v14) = (Hand.dats m 0 c).arrAt 10 cfg0.N :=
  (h c).1 10

/-- Argument 0 is the array of input window 0, which is read and never written back. -/
theorem kept_main_arg0 (r : PUnit × MemSt nD τ sig (Elt Ideal)) (h : Pipeline.FramePost cfgs (Hand.dats m) 0 (Hand.V m) r) (c : Dev nD) :
    r.2.mem ((c : Thread nD τ).loc main_arg0) = m ((c : Thread nD τ).loc main_arg0) :=
  ((h c).1 0).trans (((Hand.dats m 0 c).arrAt_in 0 rfl _).trans ((Hand.A_eq m c 0).trans (Hand.V_main_arg0 m c)))
/-- Argument 1 is the array of input window 1, which is read and never written back. -/
theorem kept_main_arg1 (r : PUnit × MemSt nD τ sig (Elt Ideal)) (h : Pipeline.FramePost cfgs (Hand.dats m) 0 (Hand.V m) r) (c : Dev nD) :
    r.2.mem ((c : Thread nD τ).loc main_arg1) = m ((c : Thread nD τ).loc main_arg1) :=
  ((h c).1 1).trans (((Hand.dats m 0 c).arrAt_in 1 rfl _).trans ((Hand.A_eq m c 1).trans (Hand.V_main_arg1 m c)))
/-- Argument 2 is the array of no window: the region leaves it as found, and it was found as `m` has it. -/
theorem kept_main_arg2 (r : PUnit × MemSt nD τ sig (Elt Ideal)) (h : Pipeline.FramePost cfgs (Hand.dats m) 0 (Hand.V m) r) (c : Dev nD) :
    r.2.mem ((c : Thread nD τ).loc main_arg2) = m ((c : Thread nD τ).loc main_arg2) :=
  ((h c).2 main_arg2 (Pipeline.mem_restRefs_of main_arg2 (by decide) (by decide))).trans (Hand.V_main_arg2 m c)
/-- Argument 3 is the array of no window: the region leaves it as found, and it was found as `m` has it. -/
theorem kept_main_arg3 (r : PUnit × MemSt nD τ sig (Elt Ideal)) (h : Pipeline.FramePost cfgs (Hand.dats m) 0 (Hand.V m) r) (c : Dev nD) :
    r.2.mem ((c : Thread nD τ).loc main_arg3) = m ((c : Thread nD τ).loc main_arg3) :=
  ((h c).2 main_arg3 (Pipeline.mem_restRefs_of main_arg3 (by decide) (by decide))).trans (Hand.V_main_arg3 m c)
/-- Argument 4 is the array of no window: the region leaves it as found, and it was found as `m` has it. -/
theorem kept_main_arg4 (r : PUnit × MemSt nD τ sig (Elt Ideal)) (h : Pipeline.FramePost cfgs (Hand.dats m) 0 (Hand.V m) r) (c : Dev nD) :
    r.2.mem ((c : Thread nD τ).loc main_arg4) = m ((c : Thread nD τ).loc main_arg4) :=
  ((h c).2 main_arg4 (Pipeline.mem_restRefs_of main_arg4 (by decide) (by decide))).trans (Hand.V_main_arg4 m c)
/-- Argument 5 is the array of no window: the region leaves it as found, and it was found as `m` has it. -/
theorem kept_main_arg5 (r : PUnit × MemSt nD τ sig (Elt Ideal)) (h : Pipeline.FramePost cfgs (Hand.dats m) 0 (Hand.V m) r) (c : Dev nD) :
    r.2.mem ((c : Thread nD τ).loc main_arg5) = m ((c : Thread nD τ).loc main_arg5) :=
  ((h c).2 main_arg5 (Pipeline.mem_restRefs_of main_arg5 (by decide) (by decide))).trans (Hand.V_main_arg5 m c)
/-- Argument 6 is the array of no window: the region leaves it as found, and it was found as `m` has it. -/
theorem kept_main_arg6 (r : PUnit × MemSt nD τ sig (Elt Ideal)) (h : Pipeline.FramePost cfgs (Hand.dats m) 0 (Hand.V m) r) (c : Dev nD) :
    r.2.mem ((c : Thread nD τ).loc main_arg6) = m ((c : Thread nD τ).loc main_arg6) :=
  ((h c).2 main_arg6 (Pipeline.mem_restRefs_of main_arg6 (by decide) (by decide))).trans (Hand.V_main_arg6 m c)
/-- Argument 7 is the array of no window: the region leaves it as found, and it was found as `m` has it. -/
theorem kept_main_arg7 (r : PUnit × MemSt nD τ sig (Elt Ideal)) (h : Pipeline.FramePost cfgs (Hand.dats m) 0 (Hand.V m) r) (c : Dev nD) :
    r.2.mem ((c : Thread nD τ).loc main_arg7) = m ((c : Thread nD τ).loc main_arg7) :=
  ((h c).2 main_arg7 (Pipeline.mem_restRefs_of main_arg7 (by decide) (by decide))).trans (Hand.V_main_arg7 m c)
/-- Argument 8 is the array of no window: the region leaves it as found, and it was found as `m` has it. -/
theorem kept_main_arg8 (r : PUnit × MemSt nD τ sig (Elt Ideal)) (h : Pipeline.FramePost cfgs (Hand.dats m) 0 (Hand.V m) r) (c : Dev nD) :
    r.2.mem ((c : Thread nD τ).loc main_arg8) = m ((c : Thread nD τ).loc main_arg8) :=
  ((h c).2 main_arg8 (Pipeline.mem_restRefs_of main_arg8 (by decide) (by decide))).trans (Hand.V_main_arg8 m c)
/-- Argument 9 is the array of no window: the region leaves it as found, and it was found as `m` has it. -/
theorem kept_main_arg9 (r : PUnit × MemSt nD τ sig (Elt Ideal)) (h : Pipeline.FramePost cfgs (Hand.dats m) 0 (Hand.V m) r) (c : Dev nD) :
    r.2.mem ((c : Thread nD τ).loc main_arg9) = m ((c : Thread nD τ).loc main_arg9) :=
  ((h c).2 main_arg9 (Pipeline.mem_restRefs_of main_arg9 (by decide) (by decide))).trans (Hand.V_main_arg9 m c)
/-- Argument 10 is the array of no window: the region leaves it as found, and it was found as `m` has it. -/
theorem kept_main_arg10 (r : PUnit × MemSt nD τ sig (Elt Ideal)) (h : Pipeline.FramePost cfgs (Hand.dats m) 0 (Hand.V m) r) (c : Dev nD) :
    r.2.mem ((c : Thread nD τ).loc main_arg10) = m ((c : Thread nD τ).loc main_arg10) :=
  ((h c).2 main_arg10 (Pipeline.mem_restRefs_of main_arg10 (by decide) (by decide))).trans (Hand.V_main_arg10 m c)
/-- Argument 11 is the array of no window: the region leaves it as found, and it was found as `m` has it. -/
theorem kept_main_arg11 (r : PUnit × MemSt nD τ sig (Elt Ideal)) (h : Pipeline.FramePost cfgs (Hand.dats m) 0 (Hand.V m) r) (c : Dev nD) :
    r.2.mem ((c : Thread nD τ).loc main_arg11) = m ((c : Thread nD τ).loc main_arg11) :=
  ((h c).2 main_arg11 (Pipeline.mem_restRefs_of main_arg11 (by decide) (by decide))).trans (Hand.V_main_arg11 m c)
/-- Argument 12 is the array of no window: the region leaves it as found, and it was found as `m` has it. -/
theorem kept_main_arg12 (r : PUnit × MemSt nD τ sig (Elt Ideal)) (h : Pipeline.FramePost cfgs (Hand.dats m) 0 (Hand.V m) r) (c : Dev nD) :
    r.2.mem ((c : Thread nD τ).loc main_arg12) = m ((c : Thread nD τ).loc main_arg12) :=
  ((h c).2 main_arg12 (Pipeline.mem_restRefs_of main_arg12 (by decide) (by decide))).trans (Hand.V_main_arg12 m c)
/-- Argument 13 is the array of no window: the region leaves it as found, and it was found as `m` has it. -/
theorem kept_main_arg13 (r : PUnit × MemSt nD τ sig (Elt Ideal)) (h : Pipeline.FramePost cfgs (Hand.dats m) 0 (Hand.V m) r) (c : Dev nD) :
    r.2.mem ((c : Thread nD τ).loc main_arg13) = m ((c : Thread nD τ).loc main_arg13) :=
  ((h c).2 main_arg13 (Pipeline.mem_restRefs_of main_arg13 (by decide) (by decide))).trans (Hand.V_main_arg13 m c)
/-- Argument 14 is the array of no window: the region leaves it as found, and it was found as `m` has it. -/
theorem kept_main_arg14 (r : PUnit × MemSt nD τ sig (Elt Ideal)) (h : Pipeline.FramePost cfgs (Hand.dats m) 0 (Hand.V m) r) (c : Dev nD) :
    r.2.mem ((c : Thread nD τ).loc main_arg14) = m ((c : Thread nD τ).loc main_arg14) :=
  ((h c).2 main_arg14 (Pipeline.mem_restRefs_of main_arg14 (by decide) (by decide))).trans (Hand.V_main_arg14 m c)

/-- Every weakly fair execution from `m` with all counters at zero ends without a fault, with the
    result array named and the fifteen arguments unchanged. -/
theorem run_blocks : θ_run defs (onTc (τ := τ) (main (F := Ideal))) ⟨m, fun _ => 0, ρ⟩ fun r => ∀ c : Dev nD,
      r.2.mem ((c : Thread nD τ).loc main_v14) = (Hand.dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (Hand.run_main m ρ)

end Cert.KernelIdeal.Entry

end
-- ==== Proof.KernelValue.lean ====
/-
  From blocks to the array.  The grid has 32 points; point `t` reads rows `256·t … 256·t + 255` of the two batch matrices and
  every weight and bias whole, and writes rows `256·t … 256·t + 255` of the result.  Each entry it writes is the cell (Spec) of
  its row and unit, so the blocks are the restrictions of ONE function of the fifteen arguments, and the 32 blocks tile the
  result: after the run the result array IS that function.
-/
import proofs.«180495_j42683384987795_2_alg».proof.Proof.FrameIdeal
import proofs.«180495_j42683384987795_2_alg».proof.Proof.KernelPay
import proofs.«180495_j42683384987795_2_alg».proof.Proof.KernelEntry
import Idealize.ShloMosaic.Lib.Pipeline.Value

set_option maxRecDepth 16384

noncomputable section

namespace Cert.KernelIdeal.Val

open Cert.KernelIdeal Cert.KernelIdeal.Gen Cert.KernelIdeal.Hand Cert.KernelIdeal.Pay Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two-coordinate origin, as the constant zero. -/
theorem hz : (![0, 0] : Fin 2 → Nat) = fun _ => 0 := funext fun a => by fin_cases a <;> rfl

/-- The printed index maps, decided over the 32 points: the two batch windows move with the output along the rows, and point
    `t` is at row block `t`; every other window stays at the origin. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Window 2 never moves and its block is its whole array: at every point its block is the array as the region finds it. -/
theorem iblk_whole2 (c : Dev nD) (t : Fin cfg0.N) : iblk m c 2 t = V m c main_v5 := by
  obtain ⟨-, -, -, -, -, -, e0, e1, -, -, -, -, -, -, -, -, -, -, -, -, -, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 5120 + 1 * (y 0).val = (y 0).val; omega
  | ⟨1, _⟩ => show win0_2.index t (1 : Fin 2) * 1024 + 1 * (y 1).val = (y 1).val; omega

/-- Window 3 never moves and its block is its whole array: at every point its block is the array as the region finds it. -/
theorem iblk_whole3 (c : Dev nD) (t : Fin cfg0.N) : iblk m c 3 t = V m c main_v7 := by
  obtain ⟨-, -, -, -, -, -, -, -, e0, e1, -, -, -, -, -, -, -, -, -, -, -, -⟩ := idx_facts t
  funext y
  show V m c main_v7 (((cfg0.win 3).blk t).view.emb y) = V m c main_v7 y
  refine congrArg (V m c main_v7) (funext fun a => Fin.ext ?_)
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- Window 4 never moves and its block is its whole array: at every point its block is the array as the region finds it. -/
theorem iblk_whole4 (c : Dev nD) (t : Fin cfg0.N) : iblk m c 4 t = V m c main_v8 := by
  obtain ⟨-, -, -, -, -, -, -, -, -, -, e0, e1, -, -, -, -, -, -, -, -, -, -⟩ := idx_facts t
  funext y
  show V m c main_v8 (((cfg0.win 4).blk t).view.emb y) = V m c main_v8 y
  refine congrArg (V m c main_v8) (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Window 5 never moves and its block is its whole array: at every point its block is the array as the region finds it. -/
theorem iblk_whole5 (c : Dev nD) (t : Fin cfg0.N) : iblk m c 5 t = V m c main_v9 := by
  obtain ⟨-, -, -, -, -, -, -, -, -, -, -, -, e0, e1, -, -, -, -, -, -, -, -⟩ := idx_facts t
  funext y
  show V m c main_v9 (((cfg0.win 5).blk t).view.emb y) = V m c main_v9 y
  refine congrArg (V m c main_v9) (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- Window 6 never moves and its block is its whole array: at every point its block is the array as the region finds it. -/
theorem iblk_whole6 (c : Dev nD) (t : Fin cfg0.N) : iblk m c 6 t = V m c main_v10 := by
  obtain ⟨-, -, -, -, -, -, -, -, -, -, -, -, -, -, e0, e1, -, -, -, -, -, -⟩ := idx_facts t
  funext y
  show V m c main_v10 (((cfg0.win 6).blk t).view.emb y) = V m c main_v10 y
  refine congrArg (V m c main_v10) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7 never moves and its block is its whole array: at every point its block is the array as the region finds it. -/
theorem iblk_whole7 (c : Dev nD) (t : Fin cfg0.N) : iblk m c 7 t = V m c main_v11 := by
  obtain ⟨-, -, -, -, -, -, -, -, -, -, -, -, -, -, -, -, e0, e1, -, -, -, -⟩ := idx_facts t
  funext y
  show V m c main_v11 (((cfg0.win 7).blk t).view.emb y) = V m c main_v11 y
  refine congrArg (V m c main_v11) (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- Window 8 never moves and its block is its whole array: at every point its block is the array as the region finds it. -/
theorem iblk_whole8 (c : Dev nD) (t : Fin cfg0.N) : iblk m c 8 t = V m c main_v12 := by
  obtain ⟨-, -, -, -, -, -, -, -, -, -, -, -, -, -, -, -, -, -, e0, e1, -, -⟩ := idx_facts t
  funext y
  show V m c main_v12 (((cfg0.win 8).blk t).view.emb y) = V m c main_v12 y
  refine congrArg (V m c main_v12) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 9 never moves and its block is its whole array: at every point its block is the array as the region finds it. -/
theorem iblk_whole9 (c : Dev nD) (t : Fin cfg0.N) : iblk m c 9 t = V m c main_v13 := by
  obtain ⟨-, -, -, -, -, -, -, -, -, -, -, -, -, -, -, -, -, -, -, -, e0, e1⟩ := idx_facts t
  funext y
  show V m c main_v13 (((cfg0.win 9).blk t).view.emb y) = V m c main_v13 y
  refine congrArg (V m c main_v13) (funext fun a => Fin.ext ?_)
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- An index of the result array is in point `t`'s block iff each coordinate is in the block's range on its axis. -/
theorem mem_blk (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v14).slice (win0_10.rect t)).set ↔ _
  rw [View.set_slice_whole, Rect.mem_set_unit]
  exact Iff.rfl

/-- Every index of the result lies in the block of the point its row falls in. -/
theorem cover (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_10 _, ?_⟩
  rw [mem_blk]
  obtain ⟨e0, e1, -⟩ := idx_facts ⟨(i 0).val / 256, by rw [hN]; omega⟩
  intro a
  match a with
  | ⟨0, _⟩ => show win0_10.index _ (0 : Fin 2) * 256 ≤ (i 0).val ∧ (i 0).val < win0_10.index _ (0 : Fin 2) * 256 + 256; rw [e0]; show (i 0).val / 256 * 256 ≤ (i 0).val ∧ (i 0).val < (i 0).val / 256 * 256 + 256; omega
  | ⟨1, _⟩ => show win0_10.index _ (1 : Fin 2) * 1024 ≤ (i 1).val ∧ (i 1).val < win0_10.index _ (1 : Fin 2) * 1024 + 1024; rw [e1]; omega

/-! ## What a point writes back -/

/-- The cell of core `c`'s fifteen argument arrays: the function the result array ends as. -/
def GK (c : Dev nD) : S8192x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- WHAT POINT `t` WRITES BACK is block `t` of `GK`: entry `y` of the block is the cell of row `256·t + y₀` and unit `y₁`. -/
theorem flushed_eq (c : Dev nD) (t : Fin cfg0.N) :
    (dats m 0 c).flushed 10 t = ((cfg0.win 10).blk t).view.read (Elt Ideal) (GK m c) := by
  show (cfg0.win 10).cut (grid0.coords t) ((dats m 0 c).after 10 t) = _
  rw [after10]
  unfold out10
  rw [View.canon_unit_zero hz]
  simp only [View.ld_unit_zero (S := S256x1024) hz, View.ld_unit_zero (S := S5120x1024) hz, View.ld_unit_zero (S := S4096x1024) hz,
    View.ld_unit_zero (S := S1024x1024) hz, View.ld_unit_zero (S := S1x1024) hz]
  rw [iblk_whole2, iblk_whole3, iblk_whole4, iblk_whole5, iblk_whole6, iblk_whole7, iblk_whole8, iblk_whole9]
  obtain ⟨e0, e1, e2, e3, e4, e5, -⟩ := idx_facts t
  have hN : cfg0.N = 32 := N_0
  have ht : t.val < 32 := hN ▸ t.isLt
  funext y
  have hy0 : (y 0).val < 256 := (y 0).isLt
  have hy1 : (y 1).val < 1024 := (y 1).isLt
  -- the row of the whole matrices that row `y₀` of the block is
  have hemb : ((cfg0.win 10).blk t).view.emb y = ix2 (⟨t.val * 256 + (y 0).val, by omega⟩ : Fin 8192) (⟨(y 1).val, hy1⟩ : Fin 1024) :=
    funext fun a => Fin.ext (by
      match a with
      | ⟨0, _⟩ => show win0_10.index t (0 : Fin 2) * 256 + 1 * (y 0).val = t.val * 256 + (y 0).val; omega
      | ⟨1, _⟩ => show win0_10.index t (1 : Fin 2) * 1024 + 1 * (y 1).val = (y 1).val; omega)
  show _ = GK m c (((cfg0.win 10).blk t).view.emb y)
  rw [hemb]
  refine (block_cell_idx (m ((c : Thread nD τ).loc main_arg0)) (m ((c : Thread nD τ).loc main_arg1)) (iblk m c 0 t) (iblk m c 1 t) (V m c main_v5) (V m c main_v7)
    (V m c main_v8) (V m c main_v9) (V m c main_v10) (V m c main_v11) (V m c main_v12) (V m c main_v13) y
    (⟨t.val * 256 + (y 0).val, by omega⟩ : Fin 8192) (⟨(y 1).val, hy1⟩ : Fin 1024) rfl (fun k => ?_) (fun k => ?_)).trans ?_
  · show V m c main_arg0 (((cfg0.win 0).blk t).view.emb (ix2 (y 0) k)) = _
    rw [V_main_arg0]
    refine congrArg _ (funext fun a => Fin.ext ?_)
    match a with
    | ⟨0, _⟩ => show win0_0.index t (0 : Fin 2) * 256 + 1 * (y 0).val = t.val * 256 + (y 0).val; omega
    | ⟨1, _⟩ => show win0_0.index t (1 : Fin 2) * 1024 + 1 * k.val = k.val; omega
  · show V m c main_arg1 (((cfg0.win 1).blk t).view.emb (ix2 (y 0) k)) = _
    rw [V_main_arg1]
    refine congrArg _ (funext fun a => Fin.ext ?_)
    match a with
    | ⟨0, _⟩ => show win0_1.index t (0 : Fin 2) * 256 + 1 * (y 0).val = t.val * 256 + (y 0).val; omega
    | ⟨1, _⟩ => show win0_1.index t (1 : Fin 2) * 1024 + 1 * k.val = k.val; omega
  · rw [Entry.wx_rows0, Entry.wx_rows1, Entry.wx_rows2, Entry.wx_rows3, Entry.wx_rows4, Entry.wh_rows0, Entry.wh_rows1,
      Entry.wh_rows2, Entry.wh_rows3, Entry.whh_eq, Entry.bias5, Entry.bias6, Entry.bias7, Entry.bias8, Entry.bias9]
    rfl

/-! ## The array after the run, and the run -/

/-- THE RESULT ARRAY after the run is `GK`: every index is in some point's block, and each block is a block of `GK`. -/
theorem final (c : Dev nD) : (dats m 0 c).arrAt 10 cfg0.N = GK m c :=
  (dats m 0 c).arrAt_eq_of_cover 10 (GK m c) (fun t _ => flushed_eq m c t) (cover)

/-- The idealized kernel's run, read: every weakly fair execution ends with the result array at the cell of the arguments,
    the arguments unchanged. -/
theorem run : θ_run defs (onTc (τ := τ) (main (F := Ideal))) ⟨m, fun _ => 0, ρ⟩ fun r => ∀ c : Dev nD,
      r.2.mem ((c : Thread nD τ).loc main_v14) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Entry.run_blocks m ρ)

end Cert.KernelIdeal.Val

end
-- ==== Proof.RefLayout.lean ====
/-
  The reference's layout steps and constants, element by element.

  A bias of 1024 entries is laid out as one row and that row is repeated down the 8192 batch rows: at `(r, j)` the
  result is the bias at `j`.  A scalar constant repeated over an array is that constant's word at every index.
-/
import proofs.«180495_j42683384987795_2_alg».proof.Proof.Gen.ReferenceIdeal.Read
import proofs.«180495_j42683384987795_2_alg».proof.Proof.Spec

noncomputable section

namespace Cert.ReferenceIdeal.RefValue

open Cert.ReferenceIdeal Cert.ReferenceIdeal.Read Idealize.ShloMosaic Idealize.ShloMosaic.ValueIdx Cert.Cell

/-- Through the row layout and the repetition down the rows, `(r, j)` reads the vector at `j`. -/
theorem idx_bias (r : Fin 8192) (j : Fin 1024) : idx_main_v3 (idx_main_v4 (ix2 r j)) = ix1 j :=
  funext fun a => Fin.ext (by match a with | ⟨0, _⟩ => rfl)

/-- `bias_c` repeated down the rows. -/
theorem v4_at (x12 : FVec Ideal S1024 .f32) (r : Fin 8192) (j : Fin 1024) :
    val_main_v4 (F := Ideal) x12 (ix2 r j) = x12 (ix1 j) := by
  rw [val_main_v4_apply, val_main_v3_apply]
  exact congrArg x12 (idx_bias r j)

/-- `bias_hat_h` repeated down the rows. -/
theorem v20_at (x14 : FVec Ideal S1024 .f32) (r : Fin 8192) (j : Fin 1024) :
    val_main_v20 (F := Ideal) x14 (ix2 r j) = x14 (ix1 j) := by
  rw [val_main_v20_apply, val_main_v19_apply]
  exact congrArg x14 (idx_bias r j)

/-- `bias_r` repeated down the rows. -/
theorem v27_at (x4 : FVec Ideal S1024 .f32) (r : Fin 8192) (j : Fin 1024) :
    val_main_v27 (F := Ideal) x4 (ix2 r j) = x4 (ix1 j) := by
  rw [val_main_v27_apply, val_main_v26_apply]
  exact congrArg x4 (idx_bias r j)

/-- `bias_z` repeated down the rows. -/
theorem v41_at (x7 : FVec Ideal S1024 .f32) (r : Fin 8192) (j : Fin 1024) :
    val_main_v41 (F := Ideal) x7 (ix2 r j) = x7 (ix1 j) := by
  rw [val_main_v41_apply, val_main_v40_apply]
  exact congrArg x7 (idx_bias r j)

/-- `bias_h` repeated down the rows. -/
theorem v55_at (x10 : FVec Ideal S1024 .f32) (r : Fin 8192) (j : Fin 1024) :
    val_main_v55 (F := Ideal) x10 (ix2 r j) = x10 (ix1 j) := by
  rw [val_main_v55_apply, val_main_v54_apply]
  exact congrArg x10 (idx_bias r j)

/-- The five arrays of ones: the word of one at every index. -/
theorem v34_at (i : S8192x1024.Idx) : val_main_v34 (F := Ideal) i = one := by
  rw [val_main_v34_apply, val_main_cst_2_apply]; rfl
theorem v36_at (i : S8192x1024.Idx) : val_main_v36 (F := Ideal) i = one := by
  rw [val_main_v36_apply, val_main_cst_3_apply]; rfl
theorem v48_at (i : S8192x1024.Idx) : val_main_v48 (F := Ideal) i = one := by
  rw [val_main_v48_apply, val_main_cst_4_apply]; rfl
theorem v50_at (i : S8192x1024.Idx) : val_main_v50 (F := Ideal) i = one := by
  rw [val_main_v50_apply, val_main_cst_5_apply]; rfl
theorem v62_at (i : S8192x1024.Idx) : val_main_v62 (F := Ideal) i = one := by
  rw [val_main_v62_apply, val_main_cst_6_apply]; rfl

/-- The array of zeros the rectifier compares against: the word of zero at every index. -/
theorem call0_v0_at (i : S8192x1024.Idx) : val_main_call0_v0 (F := Ideal) i = zer := by
  rw [val_main_call0_v0_apply, val_main_call0_cst_apply]; rfl

/-- The vector of −∞ the row maximum is joined with: the word of −∞ at every index. -/
theorem v7_at (i : S8192.Idx) : val_main_v7 (F := Ideal) i = ninf := by
  rw [val_main_v7_apply, val_main_cst_0_apply]; rfl

end Cert.ReferenceIdeal.RefValue

end
-- ==== Proof.LibScatterAdd.lean ====
/-
  The host's accumulating scatter, its gathers and the layout operations around them, READ AT AN INDEX at the ideal
  instance: general lemmas over the sizes `N` (operand rows), `K` (columns) and `E` (updates), for the dimension
  numbers `x.at[idx].add(u)` and `x[idx]` lower to with scatter / start indices of shape `[E, 1]`.

  • `scatterAdd1_apply`: element `i` of the flat scatter-add is `x i` plus the sum of the updates `e` whose scatter index,
    read signed, is `i` (an index outside `[0, N)` lands nowhere); `scatterAdd2_apply`: the same for rows of a matrix,
    update `(e, k)` landing on `(r, k)` when the scatter index of `e` is `r`.
  • `gather1_apply` / `gather2_apply`: the gathers read the operand at the start index, read signed and clamped.
  • the layout operations around them at an index: a scalar broadcast (`broadcastInDim_scalar_apply`), a flat array as a
    column and a column along its unit axis (`broadcastInDim_col_apply`, `broadcastInDim_row_apply`), two flat arrays
    joined end to end (`concatenate1_apply_left` / `concatenate1_apply_right`).
  • index words: a small natural read back signed (`toInt_ofNat32`), the negative-index wrap of a word (`wrapWord`,
    `wrap_apply`, `wrapWord_ofNat32`), the gather's clamp of a small natural (`clamp_ofNat32`).
  • self-loops appended to an edge list: when the last `N` scatter indices are `0 … N − 1`, the scatter-add is the edges'
    sum plus the one appended update of each element (`scatterAdd1_selfloop`, `scatterAdd2_selfloop`).
  • the gathers with the clamp named as a function of the index word (`clampIdx`, `gather1_clamp`, `gather2_clamp`,
    `clampIdx_ofNat32`), an `iota` at a position, the word of one, and the coordinates of `ix1` / `ix2`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace LibScatterAdd

open Idealize.ShloMosaic Idealize.ShloMosaic.ValueIdx

/-! ## Rank-1 indices and sums over them -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over `Fin E` with `E = E₁ + E₂` is the sum over the first `E₁` positions plus the sum over the last `E₂`. -/
theorem sum_fin_split {M : Type*} [AddCommMonoid M] {E₁ E₂ E : Nat} (hE : E₁ + E₂ = E) (f : Fin E → M) :
    ∑ e : Fin E, f e = (∑ e : Fin E₁, f ⟨e.val, by omega⟩) + ∑ t : Fin E₂, f ⟨E₁ + t.val, by omega⟩ := by
  subst hE
  rw [Fin.sum_univ_add]
  rfl

/-! ## The accumulating scatter `x.at[idx].add(u)` of a flat array, read at an index -/

section Scatter1
variable {N E w : Nat}

/-- The dimension numbers of `x.at[idx].add(u)` for `x : [N]`, scatter indices `[E, 1]` and updates `[E]`: no update
    window axis, the operand's axis inserted, the index vector (of one component, for axis 0) on axis 1. -/
abbrev scatterDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- No window coordinate: the one operand axis is inserted. -/
theorem scatterDims1_window (wf : ScatterDims.WF ⟨1, ![N]⟩ ⟨2, ![E, 1]⟩ ⟨1, ![E]⟩ [] [0] [0] 1)
    (j : (⟨1, ![E]⟩ : Shape).Idx) (a : Fin 1) : (scatterDims1 N E wf).window j a = 0 := by
  obtain rfl : a = 0 := Subsingleton.elim _ _
  rfl

/-- The start of update `e` is the scatter index `idx[e, 0]`, read signed. -/
theorem scatterDims1_start (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (scatterDims1 N E wf).start j idx a = (idx (ix2 (j 0) 0)).toInt := by
  obtain rfl : a = 0 := Subsingleton.elim _ _
  unfold ScatterDims.start
  rw [dif_pos (show (0 : Fin 1) ∈ (scatterDims1 N E wf).scatterDimsToOperandDims from List.mem_singleton.mpr rfl)]
  have hsi : (scatterDims1 N E wf).siIdx j ⟨List.idxOf (0 : Fin 1) (scatterDims1 N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Update `e` lands on element `i` exactly when its signed scatter index is `i`'s coordinate (an index outside
    `[0, N)` lands nowhere). -/
theorem scatterDims1_resultIdx?_eq_some (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (scatterDims1 N E wf).resultIdx? j idx = some i ↔ (idx (ix2 (j 0) 0)).toInt = ((i 0).val : Int) := by
  have hs := scatterDims1_start wf j idx
  have hw := scatterDims1_window wf j
  have hi : (i 0).val < N := (i 0).isLt
  unfold ScatterDims.resultIdx?
  split
  · rename_i h
    have h0 := h 0
    rw [hs, hw] at h0
    constructor
    · intro hh
      have e := congrArg (fun f : (⟨1, ![N]⟩ : Shape).Idx => ((f 0).val : Int)) (Option.some.inj hh)
      simp only [hs, hw] at e
      omega
    · intro hh
      congr 1
      funext a
      obtain rfl : a = 0 := Subsingleton.elim _ _
      refine Fin.ext ?_
      show ((scatterDims1 N E wf).start j idx 0 + ((scatterDims1 N E wf).window j 0 : Int)).toNat = (i 0).val
      rw [hs, hw, hh]
      omega
  · rename_i h
    constructor
    · intro hh; cases hh
    · intro hh
      exfalso; apply h; intro a
      rw [hs, hw, hh]
      obtain rfl : a = 0 := Subsingleton.elim _ _
      refine ⟨by omega, ?_⟩
      show ((i 0).val : Int) + ((0 : Nat) : Int) < (N : Int)
      omega

/-- THE FLAT SCATTER-ADD READ AT `i`: the operand's element plus the sum of the updates `e` whose scatter index
    `idx[e, 0]`, read signed, is `i`'s coordinate. -/
theorem scatterAdd1_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (scatterDims1 N E wf) x idx upd i
      = x i + ∑ e : Fin E, if (idx (ix2 e 0)).toInt = ((i 0).val : Int) then upd (ix1 e) else 0 := by
  show Ideal.hostScatterAdd (scatterDims1 N E wf) x idx upd i = _
  unfold Ideal.hostScatterAdd
  congr 1
  rw [Finset.sum_filter, sum_idx1]
  refine Finset.sum_congr rfl fun e _ => ?_
  simp only [scatterDims1_resultIdx?_eq_some]
  rfl

end Scatter1

/-! ## The accumulating scatter of ROWS `x.at[idx].add(u)` for `x : [N, K]`, read at an index -/

/-- A sum over `k` of a term present only when `P` holds and `k` is `k₀` is that term at `k₀`, when `P` holds. -/
theorem sum_ite_and_val_eq {M : Type*} [AddCommMonoid M] {K : Nat} (P : Prop) [Decidable P] (k₀ : Fin K) (f : Fin K → M) :
    (∑ k : Fin K, if P ∧ k.val = k₀.val then f k else 0) = if P then f k₀ else 0 := by
  by_cases hP : P
  · rw [if_pos hP, Finset.sum_eq_single k₀]
    · rw [if_pos ⟨hP, rfl⟩]
    · intro k _ hk
      rw [if_neg]
      rintro ⟨_, h2⟩
      exact hk (Fin.ext h2)
    · intro h; exact absurd (Finset.mem_univ _) h
  · rw [if_neg hP]
    refine Finset.sum_eq_zero fun k _ => ?_
    rw [if_neg]
    rintro ⟨h1, _⟩
    exact hP h1

section Scatter2
variable {N K E w : Nat}

/-- The dimension numbers of `x.at[idx].add(u)` for `x : [N, K]`, scatter indices `[E, 1]` and updates `[E, K]`: the
    updates' axis 1 is the window axis (going to the operand's axis 1), the operand's axis 0 is inserted and is the one
    the index vector (on axis 1, of one component) addresses. -/
abbrev scatterDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The window coordinate is `0` on the row axis … -/
theorem scatterDims2_window0 (wf : ScatterDims.WF ⟨2, ![N, K]⟩ ⟨2, ![E, 1]⟩ ⟨2, ![E, K]⟩ [1] [0] [0] 1)
    (j : (⟨2, ![E, K]⟩ : Shape).Idx) : (scatterDims2 N K E wf).window j 0 = 0 := rfl

/-- … and the update's column on the column axis. -/
theorem scatterDims2_window1 (wf : ScatterDims.WF ⟨2, ![N, K]⟩ ⟨2, ![E, 1]⟩ ⟨2, ![E, K]⟩ [1] [0] [0] 1)
    (j : (⟨2, ![E, K]⟩ : Shape).Idx) : (scatterDims2 N K E wf).window j 1 = (j 1).val := rfl

/-- The start on the row axis is the scatter index `idx[e, 0]` of the update's row `e`, read signed … -/
theorem scatterDims2_start0 (wf : ScatterDims.WF ⟨2, ![N, K]⟩ ⟨2, ![E, 1]⟩ ⟨2, ![E, K]⟩ [1] [0] [0] 1)
    (j : (⟨2, ![E, K]⟩ : Shape).Idx) (idx : IVec ⟨2, ![E, 1]⟩ w) :
    (scatterDims2 N K E wf).start j idx 0 = (idx (ix2 (j 0) 0)).toInt := by
  unfold ScatterDims.start
  rw [dif_pos (show (0 : Fin 2) ∈ (scatterDims2 N K E wf).scatterDimsToOperandDims from List.mem_singleton.mpr rfl)]
  have hsi : (scatterDims2 N K E wf).siIdx j ⟨List.idxOf (0 : Fin 2) (scatterDims2 N K E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and `0` on the column axis, which the index vector does not address. -/
theorem scatterDims2_start1 (wf : ScatterDims.WF ⟨2, ![N, K]⟩ ⟨2, ![E, 1]⟩ ⟨2, ![E, K]⟩ [1] [0] [0] 1)
    (j : (⟨2, ![E, K]⟩ : Shape).Idx) (idx : IVec ⟨2, ![E, 1]⟩ w) :
    (scatterDims2 N K E wf).start j idx 1 = 0 := by
  unfold ScatterDims.start
  rw [dif_neg (fun h => absurd (List.mem_singleton.mp h) (by decide : ¬ ((1 : Fin 2) = 0)))]

/-- Update `(e, k)` lands on element `(r, k')` exactly when the signed scatter index of row `e` is `r` and `k = k'`. -/
theorem scatterDims2_resultIdx?_eq_some (wf : ScatterDims.WF ⟨2, ![N, K]⟩ ⟨2, ![E, 1]⟩ ⟨2, ![E, K]⟩ [1] [0] [0] 1)
    (j : (⟨2, ![E, K]⟩ : Shape).Idx) (idx : IVec ⟨2, ![E, 1]⟩ w) (i : (⟨2, ![N, K]⟩ : Shape).Idx) :
    (scatterDims2 N K E wf).resultIdx? j idx = some i ↔
      ((idx (ix2 (j 0) 0)).toInt = ((i 0).val : Int) ∧ (j 1).val = (i 1).val) := by
  have hs0 := scatterDims2_start0 wf j idx
  have hs1 := scatterDims2_start1 wf j idx
  have hw0 := scatterDims2_window0 wf j
  have hw1 := scatterDims2_window1 wf j
  have hi0 : (i 0).val < N := (i 0).isLt
  have hi1 : (i 1).val < K := (i 1).isLt
  have hj1 : (j 1).val < K := (j 1).isLt
  unfold ScatterDims.resultIdx?
  split
  · rename_i h
    have h0 := h 0
    rw [hs0, hw0] at h0
    constructor
    · intro hh
      have e0 := congrArg (fun f : (⟨2, ![N, K]⟩ : Shape).Idx => ((f 0).val : Int)) (Option.some.inj hh)
      have e1 := congrArg (fun f : (⟨2, ![N, K]⟩ : Shape).Idx => ((f 1).val : Int)) (Option.some.inj hh)
      simp only [hs0, hw0] at e0
      simp only [hs1, hw1] at e1
      omega
    · intro hh
      congr 1
      funext a
      refine Fin.ext ?_
      match a with
      | ⟨0, _⟩ =>
        show ((scatterDims2 N K E wf).start j idx 0 + ((scatterDims2 N K E wf).window j 0 : Int)).toNat = (i 0).val
        rw [hs0, hw0, hh.1]
        omega
      | ⟨1, _⟩ =>
        show ((scatterDims2 N K E wf).start j idx 1 + ((scatterDims2 N K E wf).window j 1 : Int)).toNat = (i 1).val
        rw [hs1, hw1, ← hh.2]
        omega
  · rename_i h
    constructor
    · intro hh; cases hh
    · intro hh
      exfalso; apply h; intro a
      match a with
      | ⟨0, _⟩ =>
        show 0 ≤ (scatterDims2 N K E wf).start j idx 0 + ((scatterDims2 N K E wf).window j 0 : Int) ∧
          (scatterDims2 N K E wf).start j idx 0 + ((scatterDims2 N K E wf).window j 0 : Int) < (N : Int)
        rw [hs0, hw0, hh.1]
        omega
      | ⟨1, _⟩ =>
        show 0 ≤ (scatterDims2 N K E wf).start j idx 1 + ((scatterDims2 N K E wf).window j 1 : Int) ∧
          (scatterDims2 N K E wf).start j idx 1 + ((scatterDims2 N K E wf).window j 1 : Int) < (K : Int)
        rw [hs1, hw1]
        omega

/-- THE ROW SCATTER-ADD READ AT `(r, k)`: the operand's element plus the sum over the update rows `e` whose scatter
    index `idx[e, 0]`, read signed, is `r`, of the update element `(e, k)`. -/
theorem scatterAdd2_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (i : (⟨2, ![N, K]⟩ : Shape).Idx) :
    Host.scatterAdd (scatterDims2 N K E wf) x idx upd i
      = x i + ∑ e : Fin E, if (idx (ix2 e 0)).toInt = ((i 0).val : Int) then upd (ix2 e (i 1)) else 0 := by
  show Ideal.hostScatterAdd (scatterDims2 N K E wf) x idx upd i = _
  unfold Ideal.hostScatterAdd
  congr 1
  rw [Finset.sum_filter, sum_idx2]
  refine Finset.sum_congr rfl fun e _ => ?_
  simp only [scatterDims2_resultIdx?_eq_some]
  exact sum_ite_and_val_eq ((idx (ix2 e 0)).toInt = ((i 0).val : Int)) (i 1) _

end Scatter2

/-! ## The gathers `x[idx]` of a flat array and of the rows of a matrix, read at an index -/

section Gather
variable {α : Type} {N K E w : Nat}

/-- The dimension numbers of `x[idx]` for `x : [N]` and start indices `[E, 1]` (result `[E]`): no offset axis, the
    operand's axis collapsed (slice size 1) and addressed by the one component of the index vector, on axis 1. -/
abbrev gatherDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into `[0, N − 1]`. -/
theorem gather1_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (gatherDims1 N E wf) x idx j = x (ix1 ⟨min (idx (ix2 (j 0) 0)).toInt.toNat (N - 1), by omega⟩) := by
  unfold Host.gather
  congr 1
  funext a
  obtain rfl : a = 0 := Subsingleton.elim _ _
  refine Fin.ext ?_
  show (gatherDims1 N E wf).start j idx 0 + (gatherDims1 N E wf).batchCoord j 0 + (gatherDims1 N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherDims1 N E wf).startIndexMap from List.mem_singleton.mpr rfl)]
  have hsi : (gatherDims1 N E wf).siIdx j ⟨List.idxOf (0 : Fin 1) (gatherDims1 N E wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The dimension numbers of `x[idx]` (rows) for `x : [N, K]` and start indices `[E, 1]` (result `[E, K]`): the result's
    axis 1 is the offset axis (the whole row, slice size `K`), the operand's axis 0 is collapsed (slice size 1) and
    addressed by the one component of the index vector, on axis 1. -/
abbrev gatherDims2 (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, k)`: the operand at row `idx[e, 0]`, read signed and clamped into `[0, N − 1]`, column `k`. -/
theorem gather2_apply (hN : 0 < N) (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (j : (⟨2, ![E, K]⟩ : Shape).Idx) :
    Host.gather (gatherDims2 N K E wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (gatherDims2 N K E wf).start j idx 0 + (gatherDims2 N K E wf).batchCoord j 0 + (gatherDims2 N K E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims2 N K E wf).startIndexMap from List.mem_singleton.mpr rfl)]
    have hsi : (gatherDims2 N K E wf).siIdx j ⟨List.idxOf (0 : Fin 2) (gatherDims2 N K E wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (gatherDims2 N K E wf).start j idx 1 + (gatherDims2 N K E wf).batchCoord j 1 + (gatherDims2 N K E wf).offCoord j 1 = (j 1).val
    rw [GatherDims.batchCoord_eq_zero _ _ _ List.not_mem_nil]
    have hst : (gatherDims2 N K E wf).start j idx 1 = 0 := by
      unfold GatherDims.start
      rw [dif_neg (fun h => absurd (List.mem_singleton.mp h) (by decide : ¬ ((1 : Fin 2) = 0)))]
    have hoff : (gatherDims2 N K E wf).offCoord j 1 = (j 1).val := rfl
    rw [hst, hoff]
    omega

end Gather

/-! ## The layout operations around them, read at an index -/

section Layout
variable {α : Type}

/-- A scalar broadcast to any shape reads the scalar everywhere. -/
theorem broadcastInDim_scalar_apply {t : Shape} (dims : Fin 0 → Fin t.rank)
    (h : (⟨0, ![]⟩ : Shape).BroadcastsInDim t dims) (y : (⟨0, ![]⟩ : Shape).Idx → α) (j : t.Idx) :
    broadcastInDim t dims h y j = y ix0 :=
  broadcastInDim_apply dims h y j ix0 (fun a => a.elim0)

/-- A flat array `[E]` viewed as a column `[E, 1]` reads element `e` at `(e, c)`. -/
theorem broadcastInDim_col_apply {E : Nat} (dims : Fin 1 → Fin 2) (hd : dims 0 = 0)
    (h : (⟨1, ![E]⟩ : Shape).BroadcastsInDim ⟨2, ![E, 1]⟩ dims) (y : (⟨1, ![E]⟩ : Shape).Idx → α) (e : Fin E) (c : Fin 1) :
    broadcastInDim ⟨2, ![E, 1]⟩ dims h y (ix2 e c) = y (ix1 e) := by
  unfold broadcastInDim
  refine congrArg y (funext fun a => Fin.ext ?_)
  obtain rfl : a = 0 := Subsingleton.elim _ _
  by_cases h1 : (⟨1, ![E]⟩ : Shape).size 0 = 1
  · rw [dif_pos h1]
    have hE : E = 1 := h1
    have := e.isLt
    show 0 = e.val
    omega
  · rw [dif_neg h1]
    show (ix2 e c (dims 0)).val = e.val
    rw [hd]

/-- A column `[E, 1]` broadcast along its unit axis to `[E, K]` reads element `(e, 0)` at `(e, k)`. -/
theorem broadcastInDim_row_apply {E K : Nat} (dims : Fin 2 → Fin 2) (hd : dims 0 = 0)
    (h : (⟨2, ![E, 1]⟩ : Shape).BroadcastsInDim ⟨2, ![E, K]⟩ dims) (y : (⟨2, ![E, 1]⟩ : Shape).Idx → α) (e : Fin E) (k : Fin K) :
    broadcastInDim ⟨2, ![E, K]⟩ dims h y (ix2 e k) = y (ix2 e 0) := by
  unfold broadcastInDim
  refine congrArg y (funext fun a => Fin.ext ?_)
  match a with
  | ⟨0, _⟩ =>
    split
    · rename_i h1
      have hE : E = 1 := h1
      have := e.isLt
      show 0 = e.val
      omega
    · show (ix2 e k (dims 0)).val = e.val
      rw [hd]
  | ⟨1, _⟩ =>
    split
    · rfl
    · rename_i h1
      exact absurd rfl h1

/-- Two flat arrays joined end to end, read in the FIRST piece. -/
theorem concatenate1_apply_left {E₁ E₂ E : Nat}
    (h : Shape.Concatenates [(⟨1, ![E₁]⟩ : Shape), ⟨1, ![E₂]⟩] ⟨1, ![E]⟩ 0)
    (x₁ : (⟨1, ![E₁]⟩ : Shape).Idx → α) (x₂ : (⟨1, ![E₂]⟩ : Shape).Idx → α) (e : Fin E₁) (he : e.val < E) :
    concatenate ⟨1, ![E]⟩ 0 [⟨⟨1, ![E₁]⟩, x₁⟩, ⟨⟨1, ![E₂]⟩, x₂⟩] h (ix1 ⟨e.val, he⟩) = x₁ (ix1 e) :=
  concatenate_pair_apply_left 0 x₁ x₂ h (ix1 ⟨e.val, he⟩) rfl (ix1 e) (fun b => by
    obtain rfl : b = 0 := Subsingleton.elim _ _
    rfl)

/-- Two flat arrays joined end to end, read in the SECOND piece: position `E₁ + t` reads the second at `t`. -/
theorem concatenate1_apply_right {E₁ E₂ E : Nat}
    (h : Shape.Concatenates [(⟨1, ![E₁]⟩ : Shape), ⟨1, ![E₂]⟩] ⟨1, ![E]⟩ 0)
    (x₁ : (⟨1, ![E₁]⟩ : Shape).Idx → α) (x₂ : (⟨1, ![E₂]⟩ : Shape).Idx → α) (t : Fin E₂) (ht : E₁ + t.val < E) :
    concatenate ⟨1, ![E]⟩ 0 [⟨⟨1, ![E₁]⟩, x₁⟩, ⟨⟨1, ![E₂]⟩, x₂⟩] h (ix1 ⟨E₁ + t.val, ht⟩) = x₂ (ix1 t) :=
  concatenate_pair_apply_right 0 x₁ x₂ h (ix1 ⟨E₁ + t.val, ht⟩) rfl rfl (ix1 t)
    (fun b hb => absurd (Subsingleton.elim _ _) hb)
    (by show t.val + E₁ = E₁ + t.val; omega)

end Layout

/-! ## Index words: an appended `iota` and the negative-index wrap -/

section Words

/-- A small natural read back signed off its 32-bit word is itself. -/
theorem toInt_ofNat32 (t : Nat) (ht : t < 2147483648) : (BitVec.ofNat 32 t).toInt = (t : Int) := by
  have hn : (BitVec.ofNat 32 t).toNat = t := by
    rw [BitVec.toNat_ofNat]
    exact Nat.mod_eq_of_lt (by omega)
  rw [BitVec.toInt_eq_toNat_of_lt (by rw [hn]; omega), hn]

/-- The negative-index wrap of one word: `v + n` where `v` is negative read signed, else `v`. -/
def wrapWord (n v : BitVec 32) : BitVec 32 := Scalar.select (IntOp.cmpi .slt v 0#32) (IntOp.addi v n) v

/-- The wrap leaves the word of a small natural alone. -/
theorem wrapWord_ofNat32 (n : BitVec 32) (t : Nat) (ht : t < 2147483648) :
    wrapWord n (BitVec.ofNat 32 t) = BitVec.ofNat 32 t := by
  unfold wrapWord IntOp.cmpi Scalar.select
  have hs : (BitVec.ofNat 32 t).slt 0#32 = false := by
    rw [BitVec.slt, toInt_ofNat32 t ht]
    simp
  simp only [hs]
  rw [if_neg (by decide)]

/-- The printed wrap of a vector of words, read at an index. -/
theorem wrap_apply {s : Shape} (v c0 cn : IVec s 32) (n : BitVec 32) (h0 : ∀ j, c0 j = 0#32) (hn : ∀ j, cn j = n) (j : s.Idx) :
    select (cmpi .slt v c0) (addi v cn) v j = wrapWord n (v j) := by
  show Scalar.select (IntOp.cmpi .slt (v j) (c0 j)) (IntOp.addi (v j) (cn j)) (v j) = _
  rw [h0, hn]
  rfl

/-- The start index a gather computes from the word of `t < N`: `t` itself. -/
theorem clamp_ofNat32 (N t : Nat) (ht : t < N) (hN : N ≤ 2147483648) :
    min (BitVec.ofNat 32 t).toInt.toNat (N - 1) = t := by
  rw [toInt_ofNat32 t (by omega)]
  omega

end Words

/-! ## Self-loops appended to an edge list: the scatter-add splits off one update per element -/

section SelfLoop
variable {N K E₁ E w : Nat}

/-- Of the terms present where `t` is `r`, the sum is the one at `r`. -/
theorem sum_ite_val_eq {M : Type*} [AddCommMonoid M] {N : Nat} (r : Fin N) (g : Fin N → M) :
    (∑ t : Fin N, if (t.val : Int) = (r.val : Int) then g t else 0) = g r := by
  rw [Finset.sum_eq_single r]
  · rw [if_pos rfl]
  · intro t _ ht
    rw [if_neg]
    intro h
    exact ht (Fin.ext (by omega))
  · intro h; exact absurd (Finset.mem_univ _) h

/-- THE FLAT SCATTER-ADD WITH SELF-LOOPS APPENDED: when the last `N` scatter indices are `0, 1, …, N − 1` in order, element
    `i` is `x i` plus the sum of the first `E₁` updates landing on `i`, plus the appended update number `i`. -/
theorem scatterAdd1_selfloop {φ : FTy} (hE : E₁ + N = E) (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (hidx : ∀ t : Fin N, (idx (ix2 (⟨E₁ + t.val, by omega⟩ : Fin E) 0)).toInt = (t.val : Int))
    (i : (⟨1, ![N]⟩ : Shape).Idx) :
    Host.scatterAdd (scatterDims1 N E wf) x idx upd i
      = x i + ((∑ e : Fin E₁, if (idx (ix2 (⟨e.val, by omega⟩ : Fin E) 0)).toInt = ((i 0).val : Int)
                  then upd (ix1 ⟨e.val, by omega⟩) else 0)
               + upd (ix1 ⟨E₁ + (i 0).val, by have h : (i 0).val < N := (i 0).isLt; omega⟩)) := by
  rw [scatterAdd1_apply, sum_fin_split hE]
  congr 2
  simp only [hidx]
  exact sum_ite_val_eq (N := N) (i 0) (fun t => upd (ix1 ⟨E₁ + t.val, by omega⟩))

/-- THE ROW SCATTER-ADD WITH SELF-LOOPS APPENDED: the same for rows of a matrix, at `(r, k)`. -/
theorem scatterAdd2_selfloop {φ : FTy} (hE : E₁ + N = E)
    (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (hidx : ∀ t : Fin N, (idx (ix2 (⟨E₁ + t.val, by omega⟩ : Fin E) 0)).toInt = (t.val : Int))
    (i : (⟨2, ![N, K]⟩ : Shape).Idx) :
    Host.scatterAdd (scatterDims2 N K E wf) x idx upd i
      = x i + ((∑ e : Fin E₁, if (idx (ix2 (⟨e.val, by omega⟩ : Fin E) 0)).toInt = ((i 0).val : Int)
                  then upd (ix2 ⟨e.val, by omega⟩ (i 1)) else 0)
               + upd (ix2 ⟨E₁ + (i 0).val, by have h : (i 0).val < N := (i 0).isLt; omega⟩ (i 1))) := by
  rw [scatterAdd2_apply, sum_fin_split hE]
  congr 2
  simp only [hidx]
  exact sum_ite_val_eq (N := N) (i 0) (fun t => upd (ix2 ⟨E₁ + t.val, by omega⟩ (i 1)))

end SelfLoop

/-! ## The gathers through the clamp as a function of the index word -/

section Clamp
variable {α : Type} {N K E w : Nat}

/-- The row a gather reads for the start-index word `v`: `v` read signed, clamped into `[0, N − 1]`. -/
def clampIdx (N : Nat) (hN : 0 < N) {w : Nat} (v : BitVec w) : Fin N := ⟨min v.toInt.toNat (N - 1), by omega⟩

/-- The clamp of the word of `t < N` is `t`. -/
theorem clampIdx_ofNat32 (hN : 0 < N) (hN' : N ≤ 2147483648) (t : Fin N) :
    clampIdx N hN (BitVec.ofNat 32 t.val) = t :=
  Fin.ext (clamp_ofNat32 N t.val t.isLt hN')

/-- `gather1_apply` with the clamp named. -/
theorem gather1_clamp (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims1 N E wf) x idx (ix1 e) = x (ix1 (clampIdx N hN (idx (ix2 e 0)))) :=
  gather1_apply hN wf x idx (ix1 e)

/-- `gather2_apply` with the clamp named. -/
theorem gather2_clamp (hN : 0 < N) (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherDims2 N K E wf) x idx (ix2 e k) = x (ix2 (clampIdx N hN (idx (ix2 e 0))) k) :=
  gather2_apply hN wf x idx (ix2 e k)

/-- An `iota` along the one axis of a flat array reads the position's word. -/
theorem iotaInDim1_apply (n : Nat) (t : Fin n) : iotaInDim ⟨1, ![n]⟩ 32 0 (ix1 t) = BitVec.ofNat 32 t.val := rfl

/-- The single-precision word `0x3F800000` is one. -/
theorem ofBits_f32_one : Ideal.ofBits .f32 0x3F800000#32 = 1 := by
  simp [Ideal.ofBits, Ideal.ieee, -EReal.coe_mul]; norm_num

end Clamp

/-! ## Coordinates of an index built from coordinates -/

section Coords

/-- The row coordinate of `ix2 a b`. -/
theorem ix2_zero {n0 n1 : Nat} (a : Fin n0) (b : Fin n1) : ix2 a b 0 = a := rfl
/-- The column coordinate of `ix2 a b`. -/
theorem ix2_one {n0 n1 : Nat} (a : Fin n0) (b : Fin n1) : ix2 a b 1 = b := rfl
/-- The coordinate of `ix1 a`. -/
theorem ix1_zero {n : Nat} (a : Fin n) : ix1 a 0 = a := rfl

end Coords

end LibScatterAdd
-- ==== Proof.RefJoint.lean ====
/-
  The reference's two double-width products, element by element.

  `combined = [x | hidden]` joins the two batch arrays along the columns, and `combined @ W.T` contracts its 2048-long
  row against row `j` of the double-width weight.  The sum over the 2048 columns is the sum over the first 1024, where the
  joined row is `x`'s and the weight's column is `k`, plus the sum over the last 1024, where the joined row is
  `hidden`'s and the weight's column is `1024 + k`: the two row products against the weight's left and right halves.
  Adding the bias gives the specification's `joint`.
-/
import proofs.«180495_j42683384987795_2_alg».proof.Proof.Gen.ReferenceIdeal.Read
import proofs.«180495_j42683384987795_2_alg».proof.Proof.Spec
import proofs.«180495_j42683384987795_2_alg».proof.Proof.LibScatterAdd
import proofs.«180495_j42683384987795_2_alg».proof.Proof.RefLayout

noncomputable section

open scoped BigOperators

namespace Cert.ReferenceIdeal.RefValue

open Cert.ReferenceIdeal Cert.ReferenceIdeal.Read Idealize.ShloMosaic Idealize.ShloMosaic.ValueIdx Cert.Cell

/-- The joined row at a column below 1024 is `x`'s entry there. -/
theorem v0_left (x0 x1 : FVec Ideal S8192x1024 .f32) (r : Fin 8192) (k : Fin 1024) :
    val_main_v0 (F := Ideal) x0 x1 (ix2 r (⟨k.val, by omega⟩ : Fin 2048)) = x0 (ix2 r k) := by
  unfold val_main_v0
  exact concatenate_pair_apply_left (t := S8192x2048) 1 x0 x1 _ (ix2 r (⟨k.val, by omega⟩ : Fin 2048)) rfl (ix2 r k)
    (fun b => by match b with | ⟨0, _⟩ => rfl | ⟨1, _⟩ => rfl)

/-- The joined row at column `1024 + k` is `hidden`'s entry at `k`. -/
theorem v0_right (x0 x1 : FVec Ideal S8192x1024 .f32) (r : Fin 8192) (k : Fin 1024) :
    val_main_v0 (F := Ideal) x0 x1 (ix2 r (⟨1024 + k.val, by omega⟩ : Fin 2048)) = x1 (ix2 r k) := by
  unfold val_main_v0
  exact concatenate_pair_apply_right (t := S8192x2048) 1 x0 x1 _ (ix2 r (⟨1024 + k.val, by omega⟩ : Fin 2048)) rfl rfl (ix2 r k)
    (fun b hb => by match b, hb with | ⟨0, _⟩, _ => rfl | ⟨1, _⟩, hb => exact (hb (Fin.ext rfl)).elim)
    (by show k.val + 1024 = 1024 + k.val; omega)

/-- The joined operand of a double-width product is read at `(r, k)`. -/
theorem lidx_dw (r : Fin 8192) (j : Fin 1024) (k : Fin 2048) : lidx_main_v2 (ix2 r j) k = ix2 r k :=
  funext fun a => Fin.ext (by match a with | ⟨0, _⟩ => rfl | ⟨1, _⟩ => rfl)

/-- The transposed double-width weight is read at `(k, j)`, that is the weight at `(j, k)`. -/
theorem ridx_dw (r : Fin 8192) (j : Fin 1024) (k : Fin 2048) : idx_main_v1 (ridx_main_v2 (ix2 r j) k) = ix2 j k :=
  funext fun a => Fin.ext (by match a with | ⟨0, _⟩ => rfl | ⟨1, _⟩ => rfl)

/-- The 2048-long contraction is the row product of `x` with the left half plus that of `hidden` with the right half. -/
theorem sum_dw (x0 x1 : FVec Ideal S8192x1024 .f32) (w : FVec Ideal S1024x2048 .f32) (r : Fin 8192) (j : Fin 1024) :
    (∑ k : Fin 2048, val_main_v0 (F := Ideal) x0 x1 (lidx_main_v2 (ix2 r j) k) * w (idx_main_v1 (ridx_main_v2 (ix2 r j) k)))
      = rowDot x0 (leftHalf w) r j + rowDot x1 (rightHalf w) r j := by
  rw [LibScatterAdd.sum_fin_split (show 1024 + 1024 = 2048 from rfl), rowDot_leftHalf, rowDot_rightHalf]
  refine congrArg₂ (· + ·) (Finset.sum_congr rfl fun k _ => ?_) (Finset.sum_congr rfl fun k _ => ?_)
  · rw [lidx_dw, ridx_dw, v0_left]
  · rw [lidx_dw, ridx_dw, v0_right]

/-- `combined @ weight_c.T` at `(r, j)`. -/
theorem v2_at (x0 x1 : FVec Ideal S8192x1024 .f32) (x11 : FVec Ideal S1024x2048 .f32) (r : Fin 8192) (j : Fin 1024) :
    val_main_v2 (F := Ideal) x0 x1 x11 (ix2 r j) = rowDot x0 (leftHalf x11) r j + rowDot x1 (rightHalf x11) r j := by
  rw [val_main_v2_apply]
  simp only [val_main_v1_apply]
  exact sum_dw x0 x1 x11 r j

/-- `combined @ weight_hat_h.T` at `(r, j)`. -/
theorem v18_at (x0 x1 : FVec Ideal S8192x1024 .f32) (x13 : FVec Ideal S1024x2048 .f32) (r : Fin 8192) (j : Fin 1024) :
    val_main_v18 (F := Ideal) x0 x1 x13 (ix2 r j) = rowDot x0 (leftHalf x13) r j + rowDot x1 (rightHalf x13) r j := by
  rw [val_main_v18_apply]
  simp only [val_main_v17_apply]
  exact sum_dw x0 x1 x13 r j

/-- The score `c_t` at `(r, j)`. -/
theorem v5_at (x0 x1 : FVec Ideal S8192x1024 .f32) (x11 : FVec Ideal S1024x2048 .f32) (x12 : FVec Ideal S1024 .f32)
    (r : Fin 8192) (j : Fin 1024) :
    val_main_v5 (F := Ideal) x0 x1 x11 x12 (ix2 r j) = joint x0 x1 (leftHalf x11) (rightHalf x11) x12 r j := by
  rw [val_main_v5_apply, v2_at, v4_at]
  rfl

/-- The rectifier's operand at `(r, j)`. -/
theorem v21_at (x0 x1 : FVec Ideal S8192x1024 .f32) (x13 : FVec Ideal S1024x2048 .f32) (x14 : FVec Ideal S1024 .f32)
    (r : Fin 8192) (j : Fin 1024) :
    val_main_v21 (F := Ideal) x0 x1 x13 x14 (ix2 r j) = joint x0 x1 (leftHalf x13) (rightHalf x13) x14 r j := by
  rw [val_main_v21_apply, v18_at, v20_at]
  rfl

/-- The rectified value at `(r, j)`: the larger of the operand and the word of zero. -/
theorem v22_at (x0 x1 : FVec Ideal S8192x1024 .f32) (x13 : FVec Ideal S1024x2048 .f32) (x14 : FVec Ideal S1024 .f32)
    (r : Fin 8192) (j : Fin 1024) :
    val_main_v22 (F := Ideal) x0 x1 x13 x14 (ix2 r j) = max (joint x0 x1 (leftHalf x13) (rightHalf x13) x14 r j) zer := by
  rw [val_main_v22_apply, v21_at, call0_v0_at]
  rfl

end Cert.ReferenceIdeal.RefValue

end
-- ==== Proof.RefDot.lean ====
/-
  The reference's square matrix products, element by element.

  Every product of the reference is `a @ W.T` with `W` stored (out, in): a transpose of the weight and then a
  contraction of the batch row's axis 1 against the transposed weight's axis 0.  At `(r, j)` the contraction reads the
  batch operand at `(r, k)` and the transposed weight at `(k, j)`, which is the weight itself at `(j, k)`: the product
  at `(r, j)` is `Σ_k a[r,k] · W[j,k]`, the specification's `rowDot`.
-/
import proofs.«180495_j42683384987795_2_alg».proof.Proof.Gen.ReferenceIdeal.Read
import proofs.«180495_j42683384987795_2_alg».proof.Proof.Spec

noncomputable section

open scoped BigOperators

namespace Cert.ReferenceIdeal.RefValue

open Cert.ReferenceIdeal Cert.ReferenceIdeal.Read Idealize.ShloMosaic Idealize.ShloMosaic.ValueIdx Cert.Cell

/-- The batch operand of a square product is read at `(r, k)`. -/
theorem lidx_sq (r : Fin 8192) (j k : Fin 1024) : lidx_main_v25 (ix2 r j) k = ix2 r k :=
  funext fun a => Fin.ext (by match a with | ⟨0, _⟩ => rfl | ⟨1, _⟩ => rfl)

/-- The transposed weight is read at `(k, j)`, that is the weight at `(j, k)`. -/
theorem ridx_sq (r : Fin 8192) (j k : Fin 1024) : idx_main_v24 (ridx_main_v25 (ix2 r j) k) = ix2 j k :=
  funext fun a => Fin.ext (by match a with | ⟨0, _⟩ => rfl | ⟨1, _⟩ => rfl)

/-- The contraction's sum, with both operands read where the two index maps say, is the row product. -/
theorem sum_sq (a : FVec Ideal S8192x1024 .f32) (w : FVec Ideal S1024x1024 .f32) (r : Fin 8192) (j : Fin 1024) :
    (∑ k : Fin 1024, a (lidx_main_v25 (ix2 r j) k) * w (idx_main_v24 (ridx_main_v25 (ix2 r j) k))) = rowDot a w r j := by
  unfold rowDot
  refine Finset.sum_congr rfl fun k _ => ?_
  rw [lidx_sq, ridx_sq]

/-- `x @ weight_xr.T` at `(r, j)`. -/
theorem v25_at (x0 : FVec Ideal S8192x1024 .f32) (x2 : FVec Ideal S1024x1024 .f32) (r : Fin 8192) (j : Fin 1024) :
    val_main_v25 (F := Ideal) x0 x2 (ix2 r j) = rowDot x0 x2 r j := by
  rw [val_main_v25_apply]
  simp only [val_main_v24_apply]
  exact sum_sq x0 x2 r j

/-- `hidden @ weight_hr.T` at `(r, j)`. -/
theorem v30_at (x1 : FVec Ideal S8192x1024 .f32) (x3 : FVec Ideal S1024x1024 .f32) (r : Fin 8192) (j : Fin 1024) :
    val_main_v30 (F := Ideal) x1 x3 (ix2 r j) = rowDot x1 x3 r j := by
  rw [val_main_v30_apply]
  simp only [val_main_v29_apply]
  exact sum_sq x1 x3 r j

/-- `x @ weight_xz.T` at `(r, j)`. -/
theorem v39_at (x0 : FVec Ideal S8192x1024 .f32) (x5 : FVec Ideal S1024x1024 .f32) (r : Fin 8192) (j : Fin 1024) :
    val_main_v39 (F := Ideal) x0 x5 (ix2 r j) = rowDot x0 x5 r j := by
  rw [val_main_v39_apply]
  simp only [val_main_v38_apply]
  exact sum_sq x0 x5 r j

/-- `hidden @ weight_hz.T` at `(r, j)`. -/
theorem v44_at (x1 : FVec Ideal S8192x1024 .f32) (x6 : FVec Ideal S1024x1024 .f32) (r : Fin 8192) (j : Fin 1024) :
    val_main_v44 (F := Ideal) x1 x6 (ix2 r j) = rowDot x1 x6 r j := by
  rw [val_main_v44_apply]
  simp only [val_main_v43_apply]
  exact sum_sq x1 x6 r j

/-- `x @ weight_xh.T` at `(r, j)`. -/
theorem v53_at (x0 : FVec Ideal S8192x1024 .f32) (x8 : FVec Ideal S1024x1024 .f32) (r : Fin 8192) (j : Fin 1024) :
    val_main_v53 (F := Ideal) x0 x8 (ix2 r j) = rowDot x0 x8 r j := by
  rw [val_main_v53_apply]
  simp only [val_main_v52_apply]
  exact sum_sq x0 x8 r j

/-- `(r_t ⊙ hidden) @ weight_hh.T` at `(r, j)`: the scaled hidden row, whatever it is, against row `j` of the weight. -/
theorem v59_at (x0 x1 : FVec Ideal S8192x1024 .f32) (x2 x3 : FVec Ideal S1024x1024 .f32) (x4 : FVec Ideal S1024 .f32)
    (x9 : FVec Ideal S1024x1024 .f32) (r : Fin 8192) (j : Fin 1024) :
    val_main_v59 (F := Ideal) x0 x1 x2 x3 x4 x9 (ix2 r j)
      = ∑ k : Fin 1024, val_main_v57 (F := Ideal) x0 x1 x2 x3 x4 (ix2 r k) * x9 (ix2 j k) := by
  rw [val_main_v59_apply]
  simp only [val_main_v58_apply]
  exact sum_sq (val_main_v57 (F := Ideal) x0 x1 x2 x3 x4) x9 r j

end Cert.ReferenceIdeal.RefValue

end
-- ==== Proof.RefGate.lean ====
/-
  The reference's two gates and its candidate state, element by element.

  The sigmoid is written out: `1 / (1 + e^(−z))`, the ones being the word of one, which is the number one: that is the
  logistic function.  The reference adds a gate's bias before the hidden-side product, `(x·Wx + b) + h·Wh`; the
  specification adds it last, `(x·Wx + h·Wh) + b`: the same sum, addition being commutative and associative.  The same
  holds inside the hyperbolic tangent of the candidate state, whose hidden-side product runs over the hidden row scaled
  by the reset gate.
-/
import proofs.«180495_j42683384987795_2_alg».proof.Proof.Gen.ReferenceIdeal.Read
import proofs.«180495_j42683384987795_2_alg».proof.Proof.Spec
import proofs.«180495_j42683384987795_2_alg».proof.Proof.LibScatterAdd
import proofs.«180495_j42683384987795_2_alg».proof.Proof.RefLayout
import proofs.«180495_j42683384987795_2_alg».proof.Proof.RefDot

noncomputable section

open scoped BigOperators

namespace Cert.ReferenceIdeal.RefValue

open Cert.ReferenceIdeal Cert.ReferenceIdeal.Read Idealize.ShloMosaic Idealize.ShloMosaic.ValueIdx Cert.Cell

/-- `1 / (1 + e^(−z))`, with the word of one for both ones, is the logistic function of `z`. -/
theorem logistic_expanded (z : EReal) : Ideal.div one (one + Ideal.exp (-z)) = Ideal.logistic z := by
  show Ideal.div (Ideal.ofBits .f32 0x3F800000#32) (Ideal.ofBits .f32 0x3F800000#32 + Ideal.exp (-z)) = _
  rw [LibScatterAdd.ofBits_f32_one]
  rfl

/-- The reset gate `r_t` at `(r, j)`. -/
theorem v37_at (x0 x1 : FVec Ideal S8192x1024 .f32) (x2 x3 : FVec Ideal S1024x1024 .f32) (x4 : FVec Ideal S1024 .f32)
    (r : Fin 8192) (j : Fin 1024) :
    val_main_v37 (F := Ideal) x0 x1 x2 x3 x4 (ix2 r j) = gate x0 x1 x2 x3 x4 r j := by
  rw [val_main_v37_apply, v36_at, val_main_v35_apply, v34_at, val_main_v33_apply, val_main_v32_apply,
    val_main_v31_apply, val_main_v28_apply, v25_at, v27_at, v30_at]
  show Ideal.div one (one + Ideal.exp (-((rowDot x0 x2 r j + x4 (ix1 j)) + rowDot x1 x3 r j))) = _
  rw [logistic_expanded, add_right_comm]
  rfl

/-- The update gate `z_t` at `(r, j)`. -/
theorem v51_at (x0 x1 : FVec Ideal S8192x1024 .f32) (x5 x6 : FVec Ideal S1024x1024 .f32) (x7 : FVec Ideal S1024 .f32)
    (r : Fin 8192) (j : Fin 1024) :
    val_main_v51 (F := Ideal) x0 x1 x5 x6 x7 (ix2 r j) = gate x0 x1 x5 x6 x7 r j := by
  rw [val_main_v51_apply, v50_at, val_main_v49_apply, v48_at, val_main_v47_apply, val_main_v46_apply,
    val_main_v45_apply, val_main_v42_apply, v39_at, v41_at, v44_at]
  show Ideal.div one (one + Ideal.exp (-((rowDot x0 x5 r j + x7 (ix1 j)) + rowDot x1 x6 r j))) = _
  rw [logistic_expanded, add_right_comm]
  rfl

/-- The hidden row scaled by the reset gate, `r_t ⊙ hidden`, at `(r, k)`. -/
theorem v57_at (x0 x1 : FVec Ideal S8192x1024 .f32) (x2 x3 : FVec Ideal S1024x1024 .f32) (x4 : FVec Ideal S1024 .f32)
    (r : Fin 8192) (k : Fin 1024) :
    val_main_v57 (F := Ideal) x0 x1 x2 x3 x4 (ix2 r k) = gate x0 x1 x2 x3 x4 r k * x1 (ix2 r k) := by
  rw [val_main_v57_apply, v37_at]
  rfl

/-- The candidate state `h_tilde` at `(r, j)`. -/
theorem v61_at (x0 x1 : FVec Ideal S8192x1024 .f32) (x2 x3 : FVec Ideal S1024x1024 .f32) (x4 : FVec Ideal S1024 .f32)
    (x8 x9 : FVec Ideal S1024x1024 .f32) (x10 : FVec Ideal S1024 .f32) (r : Fin 8192) (j : Fin 1024) :
    val_main_v61 (F := Ideal) x0 x1 x2 x3 x4 x8 x9 x10 (ix2 r j) = cand x0 x1 x2 x3 x4 x8 x9 x10 r j := by
  rw [val_main_v61_apply, val_main_v60_apply, val_main_v56_apply, v53_at, v55_at, v59_at]
  simp only [v57_at]
  show Ideal.tanh ((rowDot x0 x8 r j + x10 (ix1 j))
    + ∑ k : Fin 1024, (gate x0 x1 x2 x3 x4 r k * x1 (ix2 r k)) * x9 (ix2 j k)) = _
  rw [add_right_comm]
  rfl

end Cert.ReferenceIdeal.RefValue

end
-- ==== Proof.RefSoftmax.lean ====
/-
  The reference's softmax along a row, element by element.

  The row maximum is a fold of `max` from the word of −∞ over the row's 1024 scores, joined with −∞ once more; it is laid
  out as a column and repeated along the row, so at `(r, j)` the shifted score is the score at `(r, j)` minus row `r`'s
  maximum.  The denominator is the word of zero, which is the number zero, plus the sum of the row's 1024 shifted
  exponentials, laid out the same way.
-/
import proofs.«180495_j42683384987795_2_alg».proof.Proof.Gen.ReferenceIdeal.Read
import proofs.«180495_j42683384987795_2_alg».proof.Proof.Spec
import proofs.«180495_j42683384987795_2_alg».proof.Proof.RefLayout
import proofs.«180495_j42683384987795_2_alg».proof.Proof.RefJoint
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx Cert.Cell

/-- Row `r` with column `k` inserted is the index `(r, k)`. -/
theorem lift_row (h : S8192x1024.Reduces [1] S8192) (r : Fin 8192) (k : Fin (S8192x1024.size 1)) :
    h.lift (ix1 r) k = ix2 r (⟨k.val, k.isLt⟩ : Fin 1024) := by
  funext c; apply Fin.ext
  match c with
  | ⟨0, _⟩ => rfl
  | ⟨1, _⟩ => rfl

/-- The max-reduce along the row: the fold of `max` from −∞ over the row's scores. -/
theorem v6_at (x0 x1 : FVec Ideal S8192x1024 .f32) (x11 : FVec Ideal S1024x2048 .f32) (x12 : FVec Ideal S1024 .f32)
    (r : Fin 8192) :
    val_main_v6 (F := Ideal) x0 x1 x11 x12 (ix1 r)
      = (Finset.univ : Finset (Fin 1024)).fold max ninf (fun k => joint x0 x1 (leftHalf x11) (rightHalf x11) x12 r k) := by
  have h : S8192x1024.Reduces [1] S8192 := by decide
  unfold val_main_v6
  generalize hy : val_main_v5 (F := Ideal) x0 x1 x11 x12 = y
  rw [Host.reduce_eq_fold_single (FloatOps.maximumf (F := Ideal) (φ := .f32)) y _ _ h]
  have hf : (y ∘ h.lift (ix1 r)) = fun k : Fin 1024 => joint x0 x1 (leftHalf x11) (rightHalf x11) x12 r k :=
    funext fun k => by
      show y (h.lift (ix1 r) k) = _
      rw [lift_row h r k, ← hy]
      exact v5_at x0 x1 x11 x12 r k
  exact congrArg (fun f => Finset.fold max ninf f (Finset.univ : Finset (Fin 1024))) hf

/-- The row maximum at `r`. -/
theorem v8_at (x0 x1 : FVec Ideal S8192x1024 .f32) (x11 : FVec Ideal S1024x2048 .f32) (x12 : FVec Ideal S1024 .f32)
    (r : Fin 8192) :
    val_main_v8 (F := Ideal) x0 x1 x11 x12 (ix1 r) = rowMax x0 x1 (leftHalf x11) (rightHalf x11) x12 r := by
  rw [val_main_v8_apply, v7_at, v6_at]
  rfl

/-- Through the column layout and the repetition along the row, `(r, j)` reads the row vector at `r`. -/
theorem idx_col_max (r : Fin 8192) (j : Fin 1024) : idx_main_v9 (idx_main_v10 (ix2 r j)) = ix1 r :=
  funext fun a => Fin.ext (by match a with | ⟨0, _⟩ => rfl)
theorem idx_col_sum (r : Fin 8192) (j : Fin 1024) : idx_main_v14 (idx_main_v15 (ix2 r j)) = ix1 r :=
  funext fun a => Fin.ext (by match a with | ⟨0, _⟩ => rfl)

/-- The row maximum repeated along the row. -/
theorem v10_at (x0 x1 : FVec Ideal S8192x1024 .f32) (x11 : FVec Ideal S1024x2048 .f32) (x12 : FVec Ideal S1024 .f32)
    (r : Fin 8192) (j : Fin 1024) :
    val_main_v10 (F := Ideal) x0 x1 x11 x12 (ix2 r j) = rowMax x0 x1 (leftHalf x11) (rightHalf x11) x12 r := by
  rw [val_main_v10_apply, val_main_v9_apply, idx_col_max, v8_at]

/-- The shifted exponential at `(r, j)`. -/
theorem v12_at (x0 x1 : FVec Ideal S8192x1024 .f32) (x11 : FVec Ideal S1024x2048 .f32) (x12 : FVec Ideal S1024 .f32)
    (r : Fin 8192) (j : Fin 1024) :
    val_main_v12 (F := Ideal) x0 x1 x11 x12 (ix2 r j) = expo x0 x1 (leftHalf x11) (rightHalf x11) x12 r j := by
  rw [val_main_v12_apply, val_main_v11_apply, v5_at, v10_at]
  rfl

/-- The sum along the row reads the operand at `(r, k)`. -/
theorem idx_row_sum (r : Fin 8192) (k : Fin 1024) : idx_main_v13 (ix1 r) k = ix2 r k :=
  funext fun a => Fin.ext (by match a with | ⟨0, _⟩ => rfl | ⟨1, _⟩ => rfl)

/-- The softmax denominator at `r`: the sum of the row's shifted exponentials. -/
theorem v13_at (x0 x1 : FVec Ideal S8192x1024 .f32) (x11 : FVec Ideal S1024x2048 .f32) (x12 : FVec Ideal S1024 .f32)
    (r : Fin 8192) :
    val_main_v13 (F := Ideal) x0 x1 x11 x12 (ix1 r) = ∑ k : Fin 1024, expo x0 x1 (leftHalf x11) (rightHalf x11) x12 r k := by
  rw [val_main_v13_apply, val_main_cst_1_apply]
  show Ideal.ofBits .f32 0x00000000#32 + _ = _
  rw [Ideal.ofBits_zero_f32, zero_add]
  refine Finset.sum_congr rfl fun k _ => ?_
  rw [idx_row_sum, v12_at]

/-- The denominator repeated along the row. -/
theorem v15_at (x0 x1 : FVec Ideal S8192x1024 .f32) (x11 : FVec Ideal S1024x2048 .f32) (x12 : FVec Ideal S1024 .f32)
    (r : Fin 8192) (j : Fin 1024) :
    val_main_v15 (F := Ideal) x0 x1 x11 x12 (ix2 r j) = ∑ k : Fin 1024, expo x0 x1 (leftHalf x11) (rightHalf x11) x12 r k := by
  rw [val_main_v15_apply, val_main_v14_apply, idx_col_sum, v13_at]

/-- The softmax weight `a_t` at `(r, j)`. -/
theorem v16_at (x0 x1 : FVec Ideal S8192x1024 .f32) (x11 : FVec Ideal S1024x2048 .f32) (x12 : FVec Ideal S1024 .f32)
    (r : Fin 8192) (j : Fin 1024) :
    val_main_v16 (F := Ideal) x0 x1 x11 x12 (ix2 r j) = attn x0 x1 (leftHalf x11) (rightHalf x11) x12 r j := by
  rw [val_main_v16_apply, v12_at, v15_at]
  rfl

end Cert.ReferenceIdeal.RefValue

end
-- ==== Proof.RefValue.lean ====
/-
  The reference program's result is the specification, element by element.

  At `(r, j)` the reference's last operations compute `((1 − z) · h_tilde + z · hidden) + a · relu(…)` from the update
  gate `z`, the candidate state `h_tilde`, the softmax weight `a` and the rectified projection, each of which is the
  specification's piece of the same name at `(r, j)`; the one is the word of one in both.
-/
import proofs.«180495_j42683384987795_2_alg».proof.Proof.Gen.ReferenceIdeal.Read
import proofs.«180495_j42683384987795_2_alg».proof.Proof.Spec
import proofs.«180495_j42683384987795_2_alg».proof.Proof.RefLayout
import proofs.«180495_j42683384987795_2_alg».proof.Proof.RefJoint
import proofs.«180495_j42683384987795_2_alg».proof.Proof.RefGate
import proofs.«180495_j42683384987795_2_alg».proof.Proof.RefSoftmax

noncomputable section

namespace Cert.ReferenceIdeal.RefValue

open Cert.ReferenceIdeal Cert.ReferenceIdeal.Read Idealize.ShloMosaic Idealize.ShloMosaic.ValueIdx Cert.Cell

/-- The new hidden state at `(r, j)`. -/
theorem v67_at (x0 x1 : FVec Ideal S8192x1024 .f32) (x2 x3 : FVec Ideal S1024x1024 .f32) (x4 : FVec Ideal S1024 .f32)
    (x5 x6 : FVec Ideal S1024x1024 .f32) (x7 : FVec Ideal S1024 .f32) (x8 x9 : FVec Ideal S1024x1024 .f32)
    (x10 : FVec Ideal S1024 .f32) (x11 : FVec Ideal S1024x2048 .f32) (x12 : FVec Ideal S1024 .f32)
    (x13 : FVec Ideal S1024x2048 .f32) (x14 : FVec Ideal S1024 .f32) (r : Fin 8192) (j : Fin 1024) :
    val_main_v67 (F := Ideal) x0 x1 x2 x3 x4 x5 x6 x7 x8 x9 x10 x11 x12 x13 x14 (ix2 r j)
      = cell x0 x1 x2 x3 x4 x5 x6 x7 x8 x9 x10 (leftHalf x11) (rightHalf x11) x12 (leftHalf x13) (rightHalf x13) x14 r j := by
  rw [val_main_v67_apply, val_main_v66_apply, val_main_v64_apply, val_main_v63_apply, val_main_v65_apply,
    val_main_v23_apply, v62_at, v51_at, v61_at, v16_at, v22_at]
  rfl

/-- The reference's result array is the specification's. -/
theorem ref_eq (x0 x1 : FVec Ideal S8192x1024 .f32) (x2 x3 : FVec Ideal S1024x1024 .f32) (x4 : FVec Ideal S1024 .f32)
    (x5 x6 : FVec Ideal S1024x1024 .f32) (x7 : FVec Ideal S1024 .f32) (x8 x9 : FVec Ideal S1024x1024 .f32)
    (x10 : FVec Ideal S1024 .f32) (x11 : FVec Ideal S1024x2048 .f32) (x12 : FVec Ideal S1024 .f32)
    (x13 : FVec Ideal S1024x2048 .f32) (x14 : FVec Ideal S1024 .f32) :
    Cert.ReferenceIdeal.Read.val_main_v67 (F := Ideal) x0 x1 x2 x3 x4 x5 x6 x7 x8 x9 x10 x11 x12 x13 x14
      = Cert.Cell.G x0 x1 x2 x3 x4 x5 x6 x7 x8 x9 x10 x11 x12 x13 x14 := by
  funext i
  obtain ⟨r, j, rfl⟩ : ∃ (r : Fin 8192) (j : Fin 1024), i = ix2 r j := ⟨i 0, i 1, eq_ix2 i⟩
  rw [v67_at]
  rfl

end Cert.ReferenceIdeal.RefValue

end
-- ==== Proof.lean ====
/-
  The certificate of the recurrent cell: the kernel (one region on 32 row blocks, two fused matrix products, a third on the
  reset-scaled hidden rows, a softmax along each row) against the reference that computes the same cell with one matrix
  product per weight.

  The three frames: the two kernels' by their runs through the region (FrameBits, FrameIdeal), the reference's by its run read
  back.  The ideal pass rewrote nothing, so there is nothing to preserve.  The value claim: at the ideal instance both result
  arrays are ONE function of the fifteen arguments, the cell of Spec — the kernel's because each grid point writes a block of
  that function and the blocks tile the array (KernelValue), the reference's operation by operation (RefValue).  The two sides
  differ only in how sums are grouped: the fused products are the separate ones stacked, the double-width weights are their two
  halves applied to the two halves of the joined row, and the biases enter the gates' sums in a different order.
-/
import proofs.«180495_j42683384987795_2_alg».proof.Defs
import proofs.«180495_j42683384987795_2_alg».proof.Proof.Gen.Kernel
import proofs.«180495_j42683384987795_2_alg».proof.Proof.Gen.KernelIdeal
import proofs.«180495_j42683384987795_2_alg».proof.Proof.Gen.ReferenceIdeal
import proofs.«180495_j42683384987795_2_alg».proof.Proof.Gen.Pre_finite_inputs
import proofs.«180495_j42683384987795_2_alg».proof.Proof.Gen.ReferenceIdeal.Read
import proofs.«180495_j42683384987795_2_alg».proof.Proof.FrameBits
import proofs.«180495_j42683384987795_2_alg».proof.Proof.KernelValue
import proofs.«180495_j42683384987795_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_kernel : Cert.frame_Kernel := fun m ρ _ => Cert.Kernel.Hand.frame m ρ

/-- So does the kernel read at the ideal instance. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the result array at the cell of those arguments. -/
theorem algebraic : Cert.algebraic_KernelIdeal_ReferenceIdeal := by
  intro m ρ m' ρ' _ hagree
  refine ⟨fun c => Cert.KernelIdeal.Val.GK m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.ref_eq]
  obtain ⟨a0, a1, a2, a3, a4, a5, a6, a7, a8, a9, a10, a11, a12, a13, a14⟩ := hagree c
  rw [a0, a1, a2, a3, a4, a5, a6, a7, a8, a9, a10, a11, a12, a13, a14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
